-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x256 : Shape := ⟨3, ![2, 256, 256]⟩
abbrev S1024x65536 : Shape := ⟨2, ![1024, 65536]⟩
abbrev S4096x65536 : Shape := ⟨2, ![4096, 65536]⟩
abbrev S_ : Shape := ⟨0, ![]⟩

class Facts : Prop where
  bcast_S_S2x256x256 : S_.BroadcastsInDim S2x256x256 (![] : Fin 0 → Fin S2x256x256.rank)
  reducesTo_S2x256x256_S_d0_1_2 : S2x256x256.ReducesTo [0, 1, 2] S_
  h_S_ : 0 < S_.numel
  bcast_S_S1024x65536 : S_.BroadcastsInDim S1024x65536 (![] : Fin 0 → Fin S1024x65536.rank)
  reducesTo_S1024x65536_S_d0_1 : S1024x65536.ReducesTo [0, 1] S_
  bcast_S_S4096x65536 : S_.BroadcastsInDim S4096x65536 (![] : Fin 0 → Fin S4096x65536.rank)
  reducesTo_S4096x65536_S_d0_1 : S4096x65536.ReducesTo [0, 1] S_

variable [Facts]

def fn {F : FTy → Type} [FloatOps F] (main_arg0 : FVec F S2x256x256 .f32) (main_arg1 : FVec F S1024x65536 .f32) (main_arg2 : FVec F S4096x65536 .f32) : IVec S_ 1 :=
  let main_v0 : FVec F S2x256x256 .f32 := Host.absf main_arg0
  let main_cst : FVec F S_ .f32 := constant S_ .f32 0x7F800000#32
  let main_v1 : FVec F S2x256x256 .f32 := broadcastInDim S2x256x256 ![] bcast_S_S2x256x256 main_cst
  let main_v2 : IVec S2x256x256 1 := cmpf .olt main_v0 main_v1
  let main_c : IVec S_ 1 := constantI S_ 1 1#1
  let main_v3 : IVec S_ 1 := (fun x v => Host.reduce IntOp.andi x v reducesTo_S2x256x256_S_d0_1_2 h_S_) main_v2 main_c
  let main_v4 : FVec F S1024x65536 .f32 := Host.absf main_arg1
  let main_cst_0 : FVec F S_ .f32 := constant S_ .f32 0x7F800000#32
  let main_v5 : FVec F S1024x65536 .f32 := broadcastInDim S1024x65536 ![] bcast_S_S1024x65536 main_cst_0
  let main_v6 : IVec S1024x65536 1 := cmpf .olt main_v4 main_v5
  let main_c_1 : IVec S_ 1 := constantI S_ 1 1#1
  let main_v7 : IVec S_ 1 := (fun x v => Host.reduce IntOp.andi x v reducesTo_S1024x65536_S_d0_1 h_S_) main_v6 main_c_1
  let main_v8 : IVec S_ 1 := andi main_v3 main_v7
  let main_v9 : FVec F S4096x65536 .f32 := Host.absf main_arg2
  let main_cst_2 : FVec F S_ .f32 := constant S_ .f32 0x7F800000#32
  let main_v10 : FVec F S4096x65536 .f32 := broadcastInDim S4096x65536 ![] bcast_S_S4096x65536 main_cst_2
  let main_v11 : IVec S4096x65536 1 := cmpf .olt main_v9 main_v10
  let main_c_3 : IVec S_ 1 := constantI S_ 1 1#1
  let main_v12 : IVec S_ 1 := (fun x v => Host.reduce IntOp.andi x v reducesTo_S4096x65536_S_d0_1 h_S_) main_v11 main_c_3
  let main_v13 : IVec S_ 1 := andi main_v8 main_v12
  main_v13
-- ==== Kernel.lean ====
abbrev S2x256x256 : Shape := ⟨3, ![2, 256, 256]⟩
abbrev S1024x65536 : Shape := ⟨2, ![1024, 65536]⟩
abbrev S4096x65536 : Shape := ⟨2, ![4096, 65536]⟩
abbrev S2x65536 : Shape := ⟨2, ![2, 65536]⟩
abbrev S2x1024 : Shape := ⟨2, ![2, 1024]⟩
abbrev S512x8192 : Shape := ⟨2, ![512, 8192]⟩
abbrev S2x512 : Shape := ⟨2, ![2, 512]⟩
abbrev S2x8192 : Shape := ⟨2, ![2, 8192]⟩
abbrev S2x32x32 : Shape := ⟨3, ![2, 32, 32]⟩
abbrev S2x4096 : Shape := ⟨2, ![2, 4096]⟩
abbrev S2x64x64 : Shape := ⟨3, ![2, 64, 64]⟩

abbrev nBuf : Space → Nat
  | .hbm => 8
  | .vmem => 12
  | .smem => 0
  | _ => 0

abbrev bufTy : (tb : Table) → Fin (tcTables nBuf tb) → BufTy
  | .hbm, ⟨0, _⟩ => ⟨S2x256x256, .f32⟩
  | .hbm, ⟨1, _⟩ => ⟨S1024x65536, .f32⟩
  | .hbm, ⟨2, _⟩ => ⟨S4096x65536, .f32⟩
  | .hbm, ⟨3, _⟩ => ⟨S2x65536, .f32⟩
  | .hbm, ⟨4, _⟩ => ⟨S2x1024, .f32⟩
  | .hbm, ⟨5, _⟩ => ⟨S2x32x32, .f32⟩
  | .hbm, ⟨6, _⟩ => ⟨S2x4096, .f32⟩
  | .hbm, ⟨7, _⟩ => ⟨S2x64x64, .f32⟩
  | .local _ .vmem, ⟨0, _⟩ => ⟨S2x65536, .f32⟩
  | .local _ .vmem, ⟨1, _⟩ => ⟨S512x8192, .f32⟩
  | .local _ .vmem, ⟨2, _⟩ => ⟨S512x8192, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x65536, .f32⟩
  | .local _ .vmem, ⟨7, _⟩ => ⟨S512x8192, .f32⟩
  | .local _ .vmem, ⟨8, _⟩ => ⟨S512x8192, .f32⟩
  | .local _ .vmem, ⟨9, _⟩ => ⟨S2x512, .f32⟩
  | .local _ .vmem, ⟨10, _⟩ => ⟨S2x512, .f32⟩
  | .local _ .vmem, ⟨11, _⟩ => ⟨S2x512, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c8192_i32 : BitVec 32 := 8192#32
  let v3 : BitVec 32 := Scalar.muli arg1 c8192_i32
  v3
def k0_off1 (i : grid0.Coords) : Fin 2 → Nat :=
  let c0 : Index := 0#32
  let arg1 : BitVec 32 := BitVec.ofNat 32 (i 1).val
  let c8192_i32 : BitVec 32 := 8192#32
  let v3 : BitVec 32 := Scalar.muli arg1 c8192_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2x65536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c8192_i32 : BitVec 32 := 8192#32
  let v3 : BitVec 32 := Scalar.muli arg1 c8192_i32
  v3
def k1_off1 (i : grid1.Coords) : Fin 2 → Nat :=
  let c0 : Index := 0#32
  let arg1 : BitVec 32 := BitVec.ofNat 32 (i 1).val
  let c8192_i32 : BitVec 32 := 8192#32
  let v3 : BitVec 32 := Scalar.muli arg1 c8192_i32
  let v4 : BitVec 32 := v3
  let v5 : Index := Scalar.indexCast v4
  ![0, v5.toNat]
def k1_cond2 (i : grid1.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S2x65536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S2x256x256_S2x65536 : S2x256x256.ShapeCasts S2x65536
  inb_S2x512_S2x512_0_0 : ∀ a, (![0, 0] : Fin 2 → Nat) a + S2x512.size a ≤ S2x512.size a
  h_S2x512 : 0 < S2x512.numel
  shapeCasts_S2x512_S2x512 : S2x512.ShapeCasts S2x512
  h_S2x8192 : 0 < S2x8192.numel
  shapeCasts_S2x8192_S2x8192 : S2x8192.ShapeCasts S2x8192
  inb_S512x8192_S512x8192_0_0 : ∀ a, (![0, 0] : Fin 2 → Nat) a + S512x8192.size a ≤ S512x8192.size a
  h_S512x8192 : 0 < S512x8192.numel
  shapeCasts_S2x1024_S2x32x32 : S2x1024.ShapeCasts S2x32x32
  shapeCasts_S2x4096_S2x64x64 : S2x4096.ShapeCasts S2x64x64
  dot_S2x8192_S512x8192_S2x512_1_1_0_0_n_n_wf : DotDims.WF S2x8192 S512x8192 S2x512 [1] [1] [0] [0] [] []
  hrank0 : 0 < grid0.rank
  k0_mult1_dvd : ∀ i : grid0.Coords, 8192 ∣ (k0_mult1 i).toNat
  k0_off1_inb : ∀ i : grid0.Coords, ∀ a, (k0_off1 i) a + S2x8192.size a ≤ S2x65536.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x65536.size a ≤ S2x65536.size a
  hwx0_0 : ∀ i : grid0.Coords, EltTy.bits .f32 = 32 ∨ (Rect.block (s := S2x65536) S2x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S1024x65536.size a
  hwx0_1 : ∀ i : grid0.Coords, EltTy.bits .f32 = 32 ∨ (Rect.block (s := S1024x65536) S512x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x1024.size a
  hwx0_2 : ∀ i : grid0.Coords, EltTy.bits .f32 = 32 ∨ (Rect.block (s := S2x1024) S2x512.size (cc0_transform_2 i) (hinb0_2 i)).WholeWords (EltTy.packing .f32)
  hrank1 : 0 < grid1.rank
  k1_mult1_dvd : ∀ i : grid1.Coords, 8192 ∣ (k1_mult1 i).toNat
  k1_off1_inb : ∀ i : grid1.Coords, ∀ a, (k1_off1 i) a + S2x8192.size a ≤ S2x65536.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x65536.size a ≤ S2x65536.size a
  hwx1_0 : ∀ i : grid1.Coords, EltTy.bits .f32 = 32 ∨ (Rect.block (s := S2x65536) S2x65536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x8192.size a ≤ S4096x65536.size a
  hwx1_1 : ∀ i : grid1.Coords, EltTy.bits .f32 = 32 ∨ (Rect.block (s := S4096x65536) S512x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x512.size a ≤ S2x4096.size a
  hwx1_2 : ∀ i : grid1.Coords, EltTy.bits .f32 = 32 ∨ (Rect.block (s := S2x4096) S2x512.size (cc1_transform_2 i) (hinb1_2 i)).WholeWords (EltTy.packing .f32)

variable [Facts₀]

def dot_S2x8192_S512x8192_S2x512_1_1_0_0_n_n : DotDims S2x8192 S512x8192 S2x512 where
  lhsContracting := [1]
  rhsContracting := [1]
  lhsNonContracting := [0]
  rhsNonContracting := [0]
  lhsBatch := []
  rhsBatch := []
  wf := dot_S2x8192_S512x8192_S2x512_1_1_0_0_n_n_wf

abbrev win0_0 : Pipeline.Window sig grid0 :=
  Pipeline.Window.ofSpec (Memref.whole main_v0) S2x65536.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S2x65536.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x256x256 : Shape := ⟨3, ![2, 256, 256]⟩
abbrev S1024x65536 : Shape := ⟨2, ![1024, 65536]⟩
abbrev S4096x65536 : Shape := ⟨2, ![4096, 65536]⟩
abbrev S2x65536 : Shape := ⟨2, ![2, 65536]⟩
abbrev S65536x1024 : Shape := ⟨2, ![65536, 1024]⟩
abbrev S2x1024 : Shape := ⟨2, ![2, 1024]⟩
abbrev S2x32x32 : Shape := ⟨3, ![2, 32, 32]⟩
abbrev S65536x4096 : Shape := ⟨2, ![65536, 4096]⟩
abbrev S2x4096 : Shape := ⟨2, ![2, 4096]⟩
abbrev S2x64x64 : Shape := ⟨3, ![2, 64, 64]⟩

abbrev nBuf : Space → Nat
  | .hbm => 10
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S1024x65536, .f32⟩
  | .hbm, ⟨2, _⟩ => ⟨S4096x65536, .f32⟩
  | .hbm, ⟨3, _⟩ => ⟨S2x65536, .f32⟩
  | .hbm, ⟨4, _⟩ => ⟨S65536x1024, .f32⟩
  | .hbm, ⟨5, _⟩ => ⟨S2x1024, .f32⟩
  | .hbm, ⟨6, _⟩ => ⟨S2x32x32, .f32⟩
  | .hbm, ⟨7, _⟩ => ⟨S65536x4096, .f32⟩
  | .hbm, ⟨8, _⟩ => ⟨S2x4096, .f32⟩
  | .hbm, ⟨9, _⟩ => ⟨S2x64x64, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S2x256x256_S2x65536 : S2x256x256.ShapeCasts S2x65536
  transposes_S1024x65536_S65536x1024_1_0 : S1024x65536.Transposes [1, 0] S65536x1024
  shapeCasts_S2x1024_S2x32x32 : S2x1024.ShapeCasts S2x32x32
  transposes_S4096x65536_S65536x4096_1_0 : S4096x65536.Transposes [1, 0] S65536x4096
  shapeCasts_S2x4096_S2x64x64 : S2x4096.ShapeCasts S2x64x64
  dot_S2x65536_S65536x1024_S2x1024_1_0_0_1_n_n_wf : DotDims.WF S2x65536 S65536x1024 S2x1024 [1] [0] [0] [1] [] []
  dot_S2x65536_S65536x4096_S2x4096_1_0_0_1_n_n_wf : DotDims.WF S2x65536 S65536x4096 S2x4096 [1] [0] [0] [1] [] []

variable [Facts₀]

def dot_S2x65536_S65536x1024_S2x1024_1_0_0_1_n_n : DotDims S2x65536 S65536x1024 S2x1024 where
  lhsContracting := [1]
  rhsContracting := [0]
  lhsNonContracting := [0]
  rhsNonContracting := [1]
  lhsBatch := []
  rhsBatch := []
  wf := dot_S2x65536_S65536x1024_S2x1024_1_0_0_1_n_n_wf
def dot_S2x65536_S65536x4096_S2x4096_1_0_0_1_n_n : DotDims S2x65536 S65536x4096 S2x4096 where
  lhsContracting := [1]
  rhsContracting := [0]
  lhsNonContracting := [0]
  rhsNonContracting := [1]
  lhsBatch := []
  rhsBatch := []
  wf := dot_S2x65536_S65536x4096_S2x4096_1_0_0_1_n_n_wf

class Facts : Prop extends Facts₀ where

variable [Facts]
-- ==== Proof.Bits.LoCases.lean ====
import proofs.«179442_j32916629357225_2_alg».proof.Proof.Gen.Kernel.Launch
import proofs.«179442_j32916629357225_2_alg».proof.Proof.Gen.Kernel.Skeleton
import proofs.«179442_j32916629357225_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The coarse downsample (the first pallas_call): its sixteen grid points, eight reduction steps for each of two
    column blocks. What every step's run is stated over. -/

section
variable (V : (c : Dev nD) → (b : Ref sig .tc) → Buf (Elt F) ((c : Thread nD τ).loc b))

/-- Window `w`'s block at point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The flattened image (window 0, one block: the whole array, fetched once) is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The selection matrix's tile (window 1, a new block at every point) is in its buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branches: the first reduction step resets the running total, the last one stores it -/

/-- "This is the first reduction step" (`k = 0`), as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last reduction step" (`k = 7`). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle: everywhere but at the last reduction step -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The buffers the body is called on -/

/-- One staging buffer of the output window, through which its contents are stated. -/
abbrev VO0_2 : View sig .tc .vmem S2x512 .f32 := (Memref.whole cc0_stg2_0 : Memref sig .tc .vmem S2x512 .f32).view
abbrev ms0_0 (t : Fin cfg0.N) : Memref sig .tc .vmem S2x65536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512 .f32 := win0_2.stage (cfg0.slots t 2)
abbrev hs0_2 (t : Fin cfg0.N) : (ms0_2 t).IsWhole := hstage0_2 ((cfg0.slots t 2).cast nbuf0_2)
/-- The running total's buffer: a whole scoped buffer of the kernel's own. -/
abbrev scM0_0 : Memref sig .tc .vmem S2x512 .f32 := Memref.whole cc0_scratch0
abbrev VS0_0 : View sig .tc .vmem S2x512 .f32 := scM0_0.view

/-- The core's other scoped buffers that this call does not stage (the second call's), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant, with the running total's buffer set apart from the other scoped buffers. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

theorem PhiA0_split (c : Dev nD) :
    (Pipeline.ΦA spec0 c : sProp 𝕄)
      ⊢ iprop(iprop((∃ d, owns (c : Thread nD τ) scM0_0 fullShare d) ∗ rest0 c) ∗ (∃ r, prngReg c r)) := by
  rw [PhiA0_eq]
theorem PhiA0_join (c : Dev nD) :
    (iprop(iprop((∃ d, owns (c : Thread nD τ) scM0_0 fullShare d) ∗ rest0 c) ∗ (∃ r, prngReg c r)) : sProp 𝕄)
      ⊢ Pipeline.ΦA spec0 c := by
  rw [PhiA0_eq]

end Cert.Kernel.Frame

end
-- ==== Proof.Bits.LoStepFirst.lean ====
import proofs.«179442_j32916629357225_2_alg».proof.Proof.Bits.LoCases

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST REDUCTION STEP (`k = 0`). On whole buffers — the image and the tile at their contents, the output's buffer at
    contents handed back untouched, the running total's at anything — the body runs: it stores zero into the running total,
    reads it back, adds the tile's product and stores the sum. The pieces the running total ends with are found by the run. -/
noncomputable def kernelRun0_A (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond0_0 i) (hc1 : ¬cond0_1 i)
    (x0 : Vec F S2x65536 .f32) (x1 : Vec F S512x8192 .f32) :
    Σ' (L2 : List (View.Piece (Elt F) S2x512 .f32)), { LS0 : List (View.Piece (Elt F) S2x512 .f32) //
      ∀ (xi2 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frame

end
-- ==== Proof.Bits.LoStepMiddle.lean ====
import proofs.«179442_j32916629357225_2_alg».proof.Proof.Bits.LoStepFirst

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE REDUCTION STEP (`0 < k < 7`). The running total's buffer at what the step before left (`xs0`): the body adds
    the tile's product to it and stores the sum; the output's buffer is handed back untouched. -/
noncomputable def kernelRun0_B (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : ¬cond0_1 i)
    (x0 : Vec F S2x65536 .f32) (x1 : Vec F S512x8192 .f32) (xs0 : Vec F S2x512 .f32) :
    Σ' (L2 : List (View.Piece (Elt F) S2x512 .f32)), { LS0 : List (View.Piece (Elt F) S2x512 .f32) //
      ∀ (xi2 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frame

end
-- ==== Proof.Bits.LoStepLast.lean ====
import proofs.«179442_j32916629357225_2_alg».proof.Proof.Bits.LoStepMiddle

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST REDUCTION STEP (`k = 7`). As a middle step, and then the finished total is read back and stored into the
    output's buffer (at anything before): the pieces both buffers end with are found by the run. -/
noncomputable def kernelRun0_C (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x65536 .f32) (x1 : Vec F S512x8192 .f32) (xs0 : Vec F S2x512 .f32) :
    Σ' (L2 : List (View.Piece (Elt F) S2x512 .f32)), { LS0 : List (View.Piece (Elt F) S2x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.Bits.LoAccum.lean ====
import proofs.«179442_j32916629357225_2_alg».proof.Proof.Bits.LoStepLast

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The coarse downsample: what its output block and its running total hold after every grid point, the invariant
    that carries the running total from one point to the next, and the body's obligation at every point -/

/-- The first step stores nothing into the output's buffer: a placeholder nothing consults (the window is idle there
    and not written back). -/
def out0_A_2 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond0_0 i) (hc1 : ¬cond0_1 i)
    (x0 : Vec F S2x65536 .f32) (x1 : Vec F S512x8192 .f32) : Vec F S2x512 .f32 :=
  VO0_2.read (Elt F) (VO0_2.writes (Elt F) VO0_2.junk (kernelRun0_A c i arg2 harg2 arg3 harg3 arg4 harg4 arg5 harg5 hc0 hc1 x0 x1).1)

/-- The first step's stores cover the running total's buffer. -/
theorem scover0_A_0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond0_0 i) (hc1 : ¬cond0_1 i)
    (x0 : Vec F S2x65536 .f32) (x1 : Vec F S512x8192 .f32) (y : S2x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2x512.size (by sl_kernel_rfl) y

/-- What the first step leaves in the running total. -/
def sout0_A_0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond0_0 i) (hc1 : ¬cond0_1 i)
    (x0 : Vec F S2x65536 .f32) (x1 : Vec F S512x8192 .f32) : Vec F S2x512 .f32 :=
  VS0_0.read (Elt F) (VS0_0.writes (Elt F) VS0_0.junk (kernelRun0_A c i arg2 harg2 arg3 harg3 arg4 harg4 arg5 harg5 hc0 hc1 x0 x1).2.1)

/-- A middle step stores nothing into the output's buffer either. -/
def out0_B_2 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : ¬cond0_1 i)
    (x0 : Vec F S2x65536 .f32) (x1 : Vec F S512x8192 .f32) (xs0 : Vec F S2x512 .f32) : Vec F S2x512 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : ¬cond0_1 i)
    (x0 : Vec F S2x65536 .f32) (x1 : Vec F S512x8192 .f32) (xs0 : Vec F S2x512 .f32) (y : S2x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2x512.size (by sl_kernel_rfl) y

/-- What a middle step leaves in the running total, from what the step before left (`xs0`). -/
def sout0_B_0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : ¬cond0_1 i)
    (x0 : Vec F S2x65536 .f32) (x1 : Vec F S512x8192 .f32) (xs0 : Vec F S2x512 .f32) : Vec F S2x512 .f32 :=
  VS0_0.read (Elt F) (VS0_0.writes (Elt F) VS0_0.junk (kernelRun0_B c i arg2 harg2 arg3 harg3 arg4 harg4 arg5 harg5 hc0 hc1 x0 x1 xs0).2.1)

/-- The last step's store covers the output's buffer. -/
theorem cover0_C_2 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x65536 .f32) (x1 : Vec F S512x8192 .f32) (xs0 : Vec F S2x512 .f32) (y : S2x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2x512.size (by sl_kernel_rfl) y

/-- What the last step leaves in the output's buffer: the finished total. -/
def out0_C_2 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x65536 .f32) (x1 : Vec F S512x8192 .f32) (xs0 : Vec F S2x512 .f32) : Vec F S2x512 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x65536 .f32) (x1 : Vec F S512x8192 .f32) (xs0 : Vec F S2x512 .f32) (y : S2x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2x512.size (by sl_kernel_rfl) y

/-- What the last step leaves in the running total. -/
def sout0_C_0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x65536 .f32) (x1 : Vec F S512x8192 .f32) (xs0 : Vec F S2x512 .f32) : Vec F S2x512 .f32 :=
  VS0_0.read (Elt F) (VS0_0.writes (Elt F) VS0_0.junk (kernelRun0_C c i arg2 harg2 arg3 harg3 arg4 harg4 arg5 harg5 hc0 hc1 x0 x1 xs0).2.1)

section
variable (V : (c : Dev nD) → (b : Ref sig .tc) → Buf (Elt F) ((c : Thread nD τ).loc b))

/-! ## One point's contribution: (the output's buffer, the running total) after the body there -/

/-- At a first reduction step: from the point's image and tile blocks alone. -/
def stepA0 (c : Dev nD) (t : Fin cfg0.N) (h0 : t.val % 8 = 0) (h1 : ¬t.val % 8 = 7) : Vec F S2x512 .f32 × Vec F S2x512 .f32 :=
  (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t),
   sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t))

/-- At a middle step: from the blocks and the running total the point before left. -/
def stepB0 (c : Dev nD) (t : Fin cfg0.N) (h0 : ¬t.val % 8 = 0) (h1 : ¬t.val % 8 = 7) (xs : Vec F S2x512 .f32) : Vec F S2x512 .f32 × Vec F S2x512 .f32 :=
  (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) xs,
   sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) xs)

/-- At a last step: likewise, and the output's buffer now holds the finished total. -/
def stepC0 (c : Dev nD) (t : Fin cfg0.N) (h0 : ¬t.val % 8 = 0) (h1 : t.val % 8 = 7) (xs : Vec F S2x512 .f32) : Vec F S2x512 .f32 × Vec F S2x512 .f32 :=
  (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) xs,
   sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) xs)

/-- THE ACCUMULATION, by recursion on the point: the first step of each column block starts afresh, every later step
    continues from the running total the point before left. -/
def outsAt0 (c : Dev nD) : (n : ℕ) → n < cfg0.N → Vec F S2x512 .f32 × Vec F S2x512 .f32
  | 0, hn => stepA0 V c ⟨0, hn⟩ (Nat.zero_mod _) (fun h => absurd h (by decide : ¬(0 % 8 = 7)))
  | n + 1, hn =>
    if h0 : (n + 1) % 8 = 0 then stepA0 V c ⟨n + 1, hn⟩ h0 (by dsimp only; omega)
    else if h1 : (n + 1) % 8 = 7 then stepC0 V c ⟨n + 1, hn⟩ h0 h1 (outsAt0 c n (Nat.lt_of_succ_lt hn)).2
    else stepB0 V c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 V c t.val t.isLt = stepA0 V c t h0 h1 := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = stepB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = stepC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points: the running total at what the point before left -/

/-- Before the first point the class's invariant (every scoped buffer at anything); afterwards the running total's buffer at
    the last point's value, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The arrays as the call finds them; after the body each input's buffer at its block and the output's at
    `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the point's residue mod 8 says which step it is; the
    invariant hands the body the running total at what the point before left (at anything before the very first point)
    and takes it back at this point's value; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold stepA0 sout0_A_0; (try dsimp only)
      by_cases hz : t.val = 0
      · rw [PhiS0_castSucc V c t, PhiS0_zero V c _ _ hz]
        have hsp := PhiA0_split (F := F) c
        iintro ⟨HP, Ho, ⟨%d0, H0⟩, ⟨%d1, H1⟩, ⟨%d2, H2⟩⟩
        ihave HP' := hsp $$ HP
        icases HP' with ⟨⟨HS0, HR⟩, Hg⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold stepC0 out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold stepB0 sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is handed (the class's invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the running total's value is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega)]
  refine BIBase.Entails.trans ?_ (PhiA0_join c)
  iintro ⟨⟨HS0, HR⟩, Hg⟩
  isplitl [HS0 HR]
  · isplitl [HS0]
    · iexists _; iexact HS0
    iexact HR
  iexact Hg

end

end Cert.Kernel.Frame

end
-- ==== Proof.Bits.HiCases.lean ====
import proofs.«179442_j32916629357225_2_alg».proof.Proof.Gen.Kernel.Launch
import proofs.«179442_j32916629357225_2_alg».proof.Proof.Gen.Kernel.Skeleton
import proofs.«179442_j32916629357225_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The fine downsample (the second pallas_call): its sixty-four grid points, eight reduction steps for each of eight
    column blocks. What every step's run is stated over. -/

section
variable (V : (c : Dev nD) → (b : Ref sig .tc) → Buf (Elt F) ((c : Thread nD τ).loc b))

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The flattened image (window 0, one block: the whole array, fetched once) is in its buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The selection matrix's tile (window 1, a new block at every point) is in its buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branches: the first reduction step resets the running total, the last one stores it -/

/-- "This is the first reduction step" (`k = 0`), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last reduction step" (`k = 7`). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle: everywhere but at the last reduction step -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The buffers the body is called on -/

/-- One staging buffer of the output window, through which its contents are stated. -/
abbrev VO1_2 : View sig .tc .vmem S2x512 .f32 := (Memref.whole cc1_stg2_0 : Memref sig .tc .vmem S2x512 .f32).view
abbrev ms1_0 (t : Fin cfg1.N) : Memref sig .tc .vmem S2x65536 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x512 .f32 := win1_2.stage (cfg1.slots t 2)
abbrev hs1_2 (t : Fin cfg1.N) : (ms1_2 t).IsWhole := hstage1_2 ((cfg1.slots t 2).cast nbuf1_2)
/-- The running total's buffer: a whole scoped buffer of the kernel's own. -/
abbrev scM1_0 : Memref sig .tc .vmem S2x512 .f32 := Memref.whole cc1_scratch0
abbrev VS1_0 : View sig .tc .vmem S2x512 .f32 := scM1_0.view

/-- The core's other scoped buffers that this call does not stage (the first call's), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant, with the running total's buffer set apart from the other scoped buffers. -/
theorem PhiA1_split (c : Dev nD) :
    (Pipeline.ΦA spec1 c : sProp 𝕄)
      ⊢ iprop(iprop((∃ d, owns (c : Thread nD τ) scM1_0 fullShare d) ∗ rest1 c) ∗ (∃ r, prngReg c r)) := by
  unfold Pipeline.ΦA rest1; rw [scopedRest1_eq]; simp only [scM1_0, owns_whole]
  iintro ⟨⟨H1, H2, H3, H4, H5, H6, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    iexact H6
  iexact Hg
theorem PhiA1_join (c : Dev nD) :
    (iprop(iprop((∃ d, owns (c : Thread nD τ) scM1_0 fullShare d) ∗ rest1 c) ∗ (∃ r, prngReg c r)) : sProp 𝕄)
      ⊢ Pipeline.ΦA spec1 c := by
  unfold Pipeline.ΦA rest1; rw [scopedRest1_eq]; simp only [scM1_0, owns_whole]
  iintro ⟨⟨HS, H1, H2, H3, H4, H5, H6⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    iexact HS
  iexact Hg

end Cert.Kernel.Frame

end
-- ==== Proof.Bits.HiStepFirst.lean ====
import proofs.«179442_j32916629357225_2_alg».proof.Proof.Bits.HiCases

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST REDUCTION STEP (`k = 0`). On whole buffers — the image and the tile at their contents, the output's buffer at
    contents handed back untouched, the running total's at anything — the body runs: it stores zero into the running total,
    reads it back, adds the tile's product and stores the sum. The pieces the running total ends with are found by the run. -/
noncomputable def kernelRun1_A (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond1_0 i) (hc1 : ¬cond1_1 i)
    (x0 : Vec F S2x65536 .f32) (x1 : Vec F S512x8192 .f32) :
    Σ' (L2 : List (View.Piece (Elt F) S2x512 .f32)), { LS0 : List (View.Piece (Elt F) S2x512 .f32) //
      ∀ (xi2 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frame

end
-- ==== Proof.Bits.HiStepMiddle.lean ====
import proofs.«179442_j32916629357225_2_alg».proof.Proof.Bits.HiStepFirst

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE REDUCTION STEP (`0 < k < 7`). The running total's buffer at what the step before left (`xs0`): the body adds
    the tile's product to it and stores the sum; the output's buffer is handed back untouched. -/
noncomputable def kernelRun1_B (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : ¬cond1_1 i)
    (x0 : Vec F S2x65536 .f32) (x1 : Vec F S512x8192 .f32) (xs0 : Vec F S2x512 .f32) :
    Σ' (L2 : List (View.Piece (Elt F) S2x512 .f32)), { LS0 : List (View.Piece (Elt F) S2x512 .f32) //
      ∀ (xi2 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frame

end
-- ==== Proof.Bits.HiStepLast.lean ====
import proofs.«179442_j32916629357225_2_alg».proof.Proof.Bits.HiStepMiddle

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST REDUCTION STEP (`k = 7`). As a middle step, and then the finished total is read back and stored into the
    output's buffer (at anything before): the pieces both buffers end with are found by the run. -/
noncomputable def kernelRun1_C (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : cond1_1 i)
    (x0 : Vec F S2x65536 .f32) (x1 : Vec F S512x8192 .f32) (xs0 : Vec F S2x512 .f32) :
    Σ' (L2 : List (View.Piece (Elt F) S2x512 .f32)), { LS0 : List (View.Piece (Elt F) S2x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.Bits.HiAccum.lean ====
import proofs.«179442_j32916629357225_2_alg».proof.Proof.Bits.HiStepLast

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The fine downsample: what its output block and its running total hold after every grid point, the invariant
    that carries the running total from one point to the next, and the body's obligation at every point -/

/-- The first step stores nothing into the output's buffer: a placeholder nothing consults (the window is idle there
    and not written back). -/
def out1_A_2 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond1_0 i) (hc1 : ¬cond1_1 i)
    (x0 : Vec F S2x65536 .f32) (x1 : Vec F S512x8192 .f32) : Vec F S2x512 .f32 :=
  VO1_2.read (Elt F) (VO1_2.writes (Elt F) VO1_2.junk (kernelRun1_A c i arg2 harg2 arg3 harg3 arg4 harg4 arg5 harg5 hc0 hc1 x0 x1).1)

/-- The first step's stores cover the running total's buffer. -/
theorem scover1_A_0 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond1_0 i) (hc1 : ¬cond1_1 i)
    (x0 : Vec F S2x65536 .f32) (x1 : Vec F S512x8192 .f32) (y : S2x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2x512.size (by sl_kernel_rfl) y

/-- What the first step leaves in the running total. -/
def sout1_A_0 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond1_0 i) (hc1 : ¬cond1_1 i)
    (x0 : Vec F S2x65536 .f32) (x1 : Vec F S512x8192 .f32) : Vec F S2x512 .f32 :=
  VS1_0.read (Elt F) (VS1_0.writes (Elt F) VS1_0.junk (kernelRun1_A c i arg2 harg2 arg3 harg3 arg4 harg4 arg5 harg5 hc0 hc1 x0 x1).2.1)

/-- A middle step stores nothing into the output's buffer either. -/
def out1_B_2 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : ¬cond1_1 i)
    (x0 : Vec F S2x65536 .f32) (x1 : Vec F S512x8192 .f32) (xs0 : Vec F S2x512 .f32) : Vec F S2x512 .f32 :=
  VO1_2.read (Elt F) (VO1_2.writes (Elt F) VO1_2.junk (kernelRun1_B c i arg2 harg2 arg3 harg3 arg4 harg4 arg5 harg5 hc0 hc1 x0 x1 xs0).1)

theorem scover1_B_0 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : ¬cond1_1 i)
    (x0 : Vec F S2x65536 .f32) (x1 : Vec F S512x8192 .f32) (xs0 : Vec F S2x512 .f32) (y : S2x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2x512.size (by sl_kernel_rfl) y

/-- What a middle step leaves in the running total, from what the step before left (`xs0`). -/
def sout1_B_0 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : ¬cond1_1 i)
    (x0 : Vec F S2x65536 .f32) (x1 : Vec F S512x8192 .f32) (xs0 : Vec F S2x512 .f32) : Vec F S2x512 .f32 :=
  VS1_0.read (Elt F) (VS1_0.writes (Elt F) VS1_0.junk (kernelRun1_B c i arg2 harg2 arg3 harg3 arg4 harg4 arg5 harg5 hc0 hc1 x0 x1 xs0).2.1)

/-- The last step's store covers the output's buffer. -/
theorem cover1_C_2 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : cond1_1 i)
    (x0 : Vec F S2x65536 .f32) (x1 : Vec F S512x8192 .f32) (xs0 : Vec F S2x512 .f32) (y : S2x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2x512.size (by sl_kernel_rfl) y

/-- What the last step leaves in the output's buffer: the finished total. -/
def out1_C_2 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : cond1_1 i)
    (x0 : Vec F S2x65536 .f32) (x1 : Vec F S512x8192 .f32) (xs0 : Vec F S2x512 .f32) : Vec F S2x512 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : cond1_1 i)
    (x0 : Vec F S2x65536 .f32) (x1 : Vec F S512x8192 .f32) (xs0 : Vec F S2x512 .f32) (y : S2x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2x512.size (by sl_kernel_rfl) y

/-- What the last step leaves in the running total. -/
def sout1_C_0 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : cond1_1 i)
    (x0 : Vec F S2x65536 .f32) (x1 : Vec F S512x8192 .f32) (xs0 : Vec F S2x512 .f32) : Vec F S2x512 .f32 :=
  VS1_0.read (Elt F) (VS1_0.writes (Elt F) VS1_0.junk (kernelRun1_C c i arg2 harg2 arg3 harg3 arg4 harg4 arg5 harg5 hc0 hc1 x0 x1 xs0).2.1)

section
variable (V : (c : Dev nD) → (b : Ref sig .tc) → Buf (Elt F) ((c : Thread nD τ).loc b))

/-! ## One point's contribution: (the output's buffer, the running total) after the body there -/

/-- At a first reduction step: from the point's image and tile blocks alone. -/
def stepA1 (c : Dev nD) (t : Fin cfg1.N) (h0 : t.val % 8 = 0) (h1 : ¬t.val % 8 = 7) : Vec F S2x512 .f32 × Vec F S2x512 .f32 :=
  (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
   sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t))

/-- At a middle step: from the blocks and the running total the point before left. -/
def stepB1 (c : Dev nD) (t : Fin cfg1.N) (h0 : ¬t.val % 8 = 0) (h1 : ¬t.val % 8 = 7) (xs : Vec F S2x512 .f32) : Vec F S2x512 .f32 × Vec F S2x512 .f32 :=
  (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) xs,
   sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) xs)

/-- At a last step: likewise, and the output's buffer now holds the finished total. -/
def stepC1 (c : Dev nD) (t : Fin cfg1.N) (h0 : ¬t.val % 8 = 0) (h1 : t.val % 8 = 7) (xs : Vec F S2x512 .f32) : Vec F S2x512 .f32 × Vec F S2x512 .f32 :=
  (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs,
   sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs)

/-- THE ACCUMULATION, by recursion on the point: the first step of each column block starts afresh, every later step
    continues from the running total the point before left. -/
def outsAt1 (c : Dev nD) : (n : ℕ) → n < cfg1.N → Vec F S2x512 .f32 × Vec F S2x512 .f32
  | 0, hn => stepA1 V c ⟨0, hn⟩ (Nat.zero_mod _) (fun h => absurd h (by decide : ¬(0 % 8 = 7)))
  | n + 1, hn =>
    if h0 : (n + 1) % 8 = 0 then stepA1 V c ⟨n + 1, hn⟩ h0 (by dsimp only; omega)
    else if h1 : (n + 1) % 8 = 7 then stepC1 V c ⟨n + 1, hn⟩ h0 h1 (outsAt1 c n (Nat.lt_of_succ_lt hn)).2
    else stepB1 V c ⟨n + 1, hn⟩ h0 h1 (outsAt1 c n (Nat.lt_of_succ_lt hn)).2

theorem outsAt1_A (c : Dev nD) (t : Fin cfg1.N) (h0 : t.val % 8 = 0) (h1 : ¬t.val % 8 = 7) :
    outsAt1 V c t.val t.isLt = stepA1 V c t h0 h1 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = stepB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stepC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points: the running total at what the point before left -/

/-- Before the first point the class's invariant (every scoped buffer at anything); afterwards the running total's buffer at
    the last point's value, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The proof data -/

/-- The arrays as the call finds them; after the body each input's buffer at its block and the output's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's residue mod 8 says which step it is; the
    invariant hands the body the running total at what the point before left (at anything before the very first point)
    and takes it back at this point's value; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold stepA1 sout1_A_0; (try dsimp only)
      by_cases hz : t.val = 0
      · rw [PhiS1_castSucc V c t, PhiS1_zero V c _ _ hz]
        have hsp := PhiA1_split (F := F) c
        iintro ⟨HP, Ho, ⟨%d0, H0⟩, ⟨%d1, H1⟩, ⟨%d2, H2⟩⟩
        ihave HP' := hsp $$ HP
        icases HP' with ⟨⟨HS0, HR⟩, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold stepC1 out1_C_2 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold stepB1 sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is handed (the class's invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the running total's value is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  refine BIBase.Entails.trans ?_ (PhiA1_join c)
  iintro ⟨⟨HS0, HR⟩, Hg⟩
  isplitl [HS0 HR]
  · isplitl [HS0]
    · iexists _; iexact HS0
    iexact HR
  iexact Hg

end

end Cert.Kernel.Frame

end
-- ==== Proof.Bits.Segments.lean ====
import proofs.«179442_j32916629357225_2_alg».proof.Proof.Bits.LoAccum
import proofs.«179442_j32916629357225_2_alg».proof.Proof.Bits.HiAccum
import proofs.«179442_j32916629357225_2_alg».proof.Proof.Gen.Kernel.Regions
import Idealize.ShloMosaic.Lib.Pipeline.RegionsLoop
import Idealize.ShloMosaic.Lib.Pipeline.FrameSuffix

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # @main as five segments — reshape, the coarse call, reshape, the fine call, reshape — and its run: every weakly fair
    execution terminates, nothing faults, and every unscoped buffer ends at the contents folded through the segments. -/

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the image is flattened (the coarse call's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the coarse call: its arrays at what the write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the coarse result is folded to its square (the fine call's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the fine call. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the fine result is folded to its square: the end. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The two calls as segments -/

set_option backward.isDefEq.respectTransparency.types false in
/-- The first call over the thread state: entered from every unscoped buffer at `W1`, left at `W2`. Its
    arrays are split out of the unscoped buffers and put back at what the write-backs leave; the generator register and the
    scoped buffers go into the call's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (U1 m) c).Φ 0 from rfl]
    refine BIBase.Entails.trans ?_ (hin0 (U1 m) c)
    unfold Pipeline.ΦA
    iintro ⟨Hp, -, Hr⟩
    isplitl [Hr]; · iexact Hr
    iexact Hp
  hout c := by
    rw [Pipeline.ownSems0_none, show (pdats m 0 c).Φ (Fin.last _) = (dat0 (U1 m) c).Φ (Fin.last cfg0.N) from rfl]
    refine BIBase.Entails.trans (hout0 (U1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W3`, left at `W4`. Its
    arrays are split out of the unscoped buffers and put back at what the write-backs leave; the generator register and the
    scoped buffers go into the call's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (U3 m) c).Φ 0 from rfl]
    refine BIBase.Entails.trans ?_ (hin1 (U3 m) c)
    unfold Pipeline.ΦA
    iintro ⟨Hp, -, Hr⟩
    isplitl [Hr]; · iexact Hr
    iexact Hp
  hout c := by
    rw [Pipeline.ownSems0_none, show (pdats m 1 c).Φ (Fin.last _) = (dat1 (U3 m) c).Φ (Fin.last cfg1.N) from rfl]
    refine BIBase.Entails.trans (hout1 (U3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and in
    every final state each unscoped buffer holds the contents folded through the five segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dat0 (U1 m) c).arrAt_in 1 rfl _).trans (A_eq0 (U1 m) c 1))
    _ = W0 m c (Proc.devRef .tc main_arg1) := StableHlo.after_of_writes_sub hostOps0 _ hostOps0_writes (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := (W4_arr m c 1).trans (((dat1 (U3 m) c).arrAt_in 1 rfl _).trans (A_eq1 (U3 m) c 1))
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.Kernel.Frame

end
-- ==== Proof.Ideal.LoCases.lean ====
import proofs.«179442_j32916629357225_2_alg».proof.Proof.Gen.KernelIdeal.Launch
import proofs.«179442_j32916629357225_2_alg».proof.Proof.Gen.KernelIdeal.Skeleton
import proofs.«179442_j32916629357225_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The coarse downsample (the first pallas_call): its sixteen grid points, eight reduction steps for each of two
    column blocks. What every step's run is stated over. -/

section
variable (V : (c : Dev nD) → (b : Ref sig .tc) → Buf (Elt F) ((c : Thread nD τ).loc b))

/-- Window `w`'s block at point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The flattened image (window 0, one block: the whole array, fetched once) is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The selection matrix's tile (window 1, a new block at every point) is in its buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branches: the first reduction step resets the running total, the last one stores it -/

/-- "This is the first reduction step" (`k = 0`), as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last reduction step" (`k = 7`). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle: everywhere but at the last reduction step -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The buffers the body is called on -/

/-- One staging buffer of the output window, through which its contents are stated. -/
abbrev VO0_2 : View sig .tc .vmem S2x512 .f32 := (Memref.whole cc0_stg2_0 : Memref sig .tc .vmem S2x512 .f32).view
abbrev ms0_0 (t : Fin cfg0.N) : Memref sig .tc .vmem S2x65536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512 .f32 := win0_2.stage (cfg0.slots t 2)
abbrev hs0_2 (t : Fin cfg0.N) : (ms0_2 t).IsWhole := hstage0_2 ((cfg0.slots t 2).cast nbuf0_2)
/-- The running total's buffer: a whole scoped buffer of the kernel's own. -/
abbrev scM0_0 : Memref sig .tc .vmem S2x512 .f32 := Memref.whole cc0_scratch0
abbrev VS0_0 : View sig .tc .vmem S2x512 .f32 := scM0_0.view

/-- The core's other scoped buffers that this call does not stage (the second call's), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant, with the running total's buffer set apart from the other scoped buffers. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

theorem PhiA0_split (c : Dev nD) :
    (Pipeline.ΦA spec0 c : sProp 𝕄)
      ⊢ iprop(iprop((∃ d, owns (c : Thread nD τ) scM0_0 fullShare d) ∗ rest0 c) ∗ (∃ r, prngReg c r)) := by
  rw [PhiA0_eq]
theorem PhiA0_join (c : Dev nD) :
    (iprop(iprop((∃ d, owns (c : Thread nD τ) scM0_0 fullShare d) ∗ rest0 c) ∗ (∃ r, prngReg c r)) : sProp 𝕄)
      ⊢ Pipeline.ΦA spec0 c := by
  rw [PhiA0_eq]

end Cert.KernelIdeal.Frame

end
-- ==== Proof.Ideal.LoStepFirst.lean ====
import proofs.«179442_j32916629357225_2_alg».proof.Proof.Ideal.LoCases

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST REDUCTION STEP (`k = 0`). On whole buffers — the image and the tile at their contents, the output's buffer at
    contents handed back untouched, the running total's at anything — the body runs: it stores zero into the running total,
    reads it back, adds the tile's product and stores the sum. The pieces the running total ends with are found by the run. -/
noncomputable def kernelRun0_A (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond0_0 i) (hc1 : ¬cond0_1 i)
    (x0 : Vec F S2x65536 .f32) (x1 : Vec F S512x8192 .f32) :
    Σ' (L2 : List (View.Piece (Elt F) S2x512 .f32)), { LS0 : List (View.Piece (Elt F) S2x512 .f32) //
      ∀ (xi2 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frame

end
-- ==== Proof.Ideal.LoStepMiddle.lean ====
import proofs.«179442_j32916629357225_2_alg».proof.Proof.Ideal.LoStepFirst

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE REDUCTION STEP (`0 < k < 7`). The running total's buffer at what the step before left (`xs0`): the body adds
    the tile's product to it and stores the sum; the output's buffer is handed back untouched. -/
noncomputable def kernelRun0_B (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : ¬cond0_1 i)
    (x0 : Vec F S2x65536 .f32) (x1 : Vec F S512x8192 .f32) (xs0 : Vec F S2x512 .f32) :
    Σ' (L2 : List (View.Piece (Elt F) S2x512 .f32)), { LS0 : List (View.Piece (Elt F) S2x512 .f32) //
      ∀ (xi2 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frame

end
-- ==== Proof.Ideal.LoStepLast.lean ====
import proofs.«179442_j32916629357225_2_alg».proof.Proof.Ideal.LoStepMiddle

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST REDUCTION STEP (`k = 7`). As a middle step, and then the finished total is read back and stored into the
    output's buffer (at anything before): the pieces both buffers end with are found by the run. -/
noncomputable def kernelRun0_C (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x65536 .f32) (x1 : Vec F S512x8192 .f32) (xs0 : Vec F S2x512 .f32) :
    Σ' (L2 : List (View.Piece (Elt F) S2x512 .f32)), { LS0 : List (View.Piece (Elt F) S2x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.Ideal.LoAccum.lean ====
import proofs.«179442_j32916629357225_2_alg».proof.Proof.Ideal.LoStepLast

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The coarse downsample: what its output block and its running total hold after every grid point, the invariant
    that carries the running total from one point to the next, and the body's obligation at every point -/

/-- The first step stores nothing into the output's buffer: a placeholder nothing consults (the window is idle there
    and not written back). -/
def out0_A_2 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond0_0 i) (hc1 : ¬cond0_1 i)
    (x0 : Vec F S2x65536 .f32) (x1 : Vec F S512x8192 .f32) : Vec F S2x512 .f32 :=
  VO0_2.read (Elt F) (VO0_2.writes (Elt F) VO0_2.junk (kernelRun0_A c i arg2 harg2 arg3 harg3 arg4 harg4 arg5 harg5 hc0 hc1 x0 x1).1)

/-- The first step's stores cover the running total's buffer. -/
theorem scover0_A_0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond0_0 i) (hc1 : ¬cond0_1 i)
    (x0 : Vec F S2x65536 .f32) (x1 : Vec F S512x8192 .f32) (y : S2x512.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2x512.size (by sl_kernel_rfl) y

/-- What the first step leaves in the running total. -/
def sout0_A_0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond0_0 i) (hc1 : ¬cond0_1 i)
    (x0 : Vec F S2x65536 .f32) (x1 : Vec F S512x8192 .f32) : Vec F S2x512 .f32 :=
  VS0_0.read (Elt F) (VS0_0.writes (Elt F) VS0_0.junk (kernelRun0_A c i arg2 harg2 arg3 harg3 arg4 harg4 arg5 harg5 hc0 hc1 x0 x1).2.1)

/-- A middle step stores nothing into the output's buffer either. -/
def out0_B_2 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : ¬cond0_1 i)
    (x0 : Vec F S2x65536 .f32) (x1 : Vec F S512x8192 .f32) (xs0 : Vec F S2x512 .f32) : Vec F S2x512 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : ¬cond0_1 i)
    (x0 : Vec F S2x65536 .f32) (x1 : Vec F S512x8192 .f32) (xs0 : Vec F S2x512 .f32) (y : S2x512.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2x512.size (by sl_kernel_rfl) y

/-- What a middle step leaves in the running total, from what the step before left (`xs0`). -/
def sout0_B_0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : ¬cond0_1 i)
    (x0 : Vec F S2x65536 .f32) (x1 : Vec F S512x8192 .f32) (xs0 : Vec F S2x512 .f32) : Vec F S2x512 .f32 :=
  VS0_0.read (Elt F) (VS0_0.writes (Elt F) VS0_0.junk (kernelRun0_B c i arg2 harg2 arg3 harg3 arg4 harg4 arg5 harg5 hc0 hc1 x0 x1 xs0).2.1)

/-- The last step's store covers the output's buffer. -/
theorem cover0_C_2 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x65536 .f32) (x1 : Vec F S512x8192 .f32) (xs0 : Vec F S2x512 .f32) (y : S2x512.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2x512.size (by sl_kernel_rfl) y

/-- What the last step leaves in the output's buffer: the finished total. -/
def out0_C_2 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x65536 .f32) (x1 : Vec F S512x8192 .f32) (xs0 : Vec F S2x512 .f32) : Vec F S2x512 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x65536 .f32) (x1 : Vec F S512x8192 .f32) (xs0 : Vec F S2x512 .f32) (y : S2x512.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2x512.size (by sl_kernel_rfl) y

/-- What the last step leaves in the running total. -/
def sout0_C_0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x65536 .f32) (x1 : Vec F S512x8192 .f32) (xs0 : Vec F S2x512 .f32) : Vec F S2x512 .f32 :=
  VS0_0.read (Elt F) (VS0_0.writes (Elt F) VS0_0.junk (kernelRun0_C c i arg2 harg2 arg3 harg3 arg4 harg4 arg5 harg5 hc0 hc1 x0 x1 xs0).2.1)

section
variable (V : (c : Dev nD) → (b : Ref sig .tc) → Buf (Elt F) ((c : Thread nD τ).loc b))

/-! ## One point's contribution: (the output's buffer, the running total) after the body there -/

/-- At a first reduction step: from the point's image and tile blocks alone. -/
def stepA0 (c : Dev nD) (t : Fin cfg0.N) (h0 : t.val % 8 = 0) (h1 : ¬t.val % 8 = 7) : Vec F S2x512 .f32 × Vec F S2x512 .f32 :=
  (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t),
   sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t))

/-- At a middle step: from the blocks and the running total the point before left. -/
def stepB0 (c : Dev nD) (t : Fin cfg0.N) (h0 : ¬t.val % 8 = 0) (h1 : ¬t.val % 8 = 7) (xs : Vec F S2x512 .f32) : Vec F S2x512 .f32 × Vec F S2x512 .f32 :=
  (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) xs,
   sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) xs)

/-- At a last step: likewise, and the output's buffer now holds the finished total. -/
def stepC0 (c : Dev nD) (t : Fin cfg0.N) (h0 : ¬t.val % 8 = 0) (h1 : t.val % 8 = 7) (xs : Vec F S2x512 .f32) : Vec F S2x512 .f32 × Vec F S2x512 .f32 :=
  (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) xs,
   sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) xs)

/-- THE ACCUMULATION, by recursion on the point: the first step of each column block starts afresh, every later step
    continues from the running total the point before left. -/
def outsAt0 (c : Dev nD) : (n : ℕ) → n < cfg0.N → Vec F S2x512 .f32 × Vec F S2x512 .f32
  | 0, hn => stepA0 V c ⟨0, hn⟩ (Nat.zero_mod _) (fun h => absurd h (by decide : ¬(0 % 8 = 7)))
  | n + 1, hn =>
    if h0 : (n + 1) % 8 = 0 then stepA0 V c ⟨n + 1, hn⟩ h0 (by dsimp only; omega)
    else if h1 : (n + 1) % 8 = 7 then stepC0 V c ⟨n + 1, hn⟩ h0 h1 (outsAt0 c n (Nat.lt_of_succ_lt hn)).2
    else stepB0 V c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 V c t.val t.isLt = stepA0 V c t h0 h1 := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = stepB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = stepC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points: the running total at what the point before left -/

/-- Before the first point the class's invariant (every scoped buffer at anything); afterwards the running total's buffer at
    the last point's value, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The arrays as the call finds them; after the body each input's buffer at its block and the output's at
    `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the point's residue mod 8 says which step it is; the
    invariant hands the body the running total at what the point before left (at anything before the very first point)
    and takes it back at this point's value; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold stepA0 sout0_A_0; (try dsimp only)
      by_cases hz : t.val = 0
      · rw [PhiS0_castSucc V c t, PhiS0_zero V c _ _ hz]
        have hsp := PhiA0_split (F := F) c
        iintro ⟨HP, Ho, ⟨%d0, H0⟩, ⟨%d1, H1⟩, ⟨%d2, H2⟩⟩
        ihave HP' := hsp $$ HP
        icases HP' with ⟨⟨HS0, HR⟩, Hg⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold stepC0 out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold stepB0 sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is handed (the class's invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the running total's value is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega)]
  refine BIBase.Entails.trans ?_ (PhiA0_join c)
  iintro ⟨⟨HS0, HR⟩, Hg⟩
  isplitl [HS0 HR]
  · isplitl [HS0]
    · iexists _; iexact HS0
    iexact HR
  iexact Hg

end

end Cert.KernelIdeal.Frame

end
-- ==== Proof.Ideal.HiCases.lean ====
import proofs.«179442_j32916629357225_2_alg».proof.Proof.Gen.KernelIdeal.Launch
import proofs.«179442_j32916629357225_2_alg».proof.Proof.Gen.KernelIdeal.Skeleton
import proofs.«179442_j32916629357225_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The fine downsample (the second pallas_call): its sixty-four grid points, eight reduction steps for each of eight
    column blocks. What every step's run is stated over. -/

section
variable (V : (c : Dev nD) → (b : Ref sig .tc) → Buf (Elt F) ((c : Thread nD τ).loc b))

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The flattened image (window 0, one block: the whole array, fetched once) is in its buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The selection matrix's tile (window 1, a new block at every point) is in its buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branches: the first reduction step resets the running total, the last one stores it -/

/-- "This is the first reduction step" (`k = 0`), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last reduction step" (`k = 7`). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle: everywhere but at the last reduction step -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The buffers the body is called on -/

/-- One staging buffer of the output window, through which its contents are stated. -/
abbrev VO1_2 : View sig .tc .vmem S2x512 .f32 := (Memref.whole cc1_stg2_0 : Memref sig .tc .vmem S2x512 .f32).view
abbrev ms1_0 (t : Fin cfg1.N) : Memref sig .tc .vmem S2x65536 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x512 .f32 := win1_2.stage (cfg1.slots t 2)
abbrev hs1_2 (t : Fin cfg1.N) : (ms1_2 t).IsWhole := hstage1_2 ((cfg1.slots t 2).cast nbuf1_2)
/-- The running total's buffer: a whole scoped buffer of the kernel's own. -/
abbrev scM1_0 : Memref sig .tc .vmem S2x512 .f32 := Memref.whole cc1_scratch0
abbrev VS1_0 : View sig .tc .vmem S2x512 .f32 := scM1_0.view

/-- The core's other scoped buffers that this call does not stage (the first call's), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant, with the running total's buffer set apart from the other scoped buffers. -/
theorem PhiA1_split (c : Dev nD) :
    (Pipeline.ΦA spec1 c : sProp 𝕄)
      ⊢ iprop(iprop((∃ d, owns (c : Thread nD τ) scM1_0 fullShare d) ∗ rest1 c) ∗ (∃ r, prngReg c r)) := by
  unfold Pipeline.ΦA rest1; rw [scopedRest1_eq]; simp only [scM1_0, owns_whole]
  iintro ⟨⟨H1, H2, H3, H4, H5, H6, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    iexact H6
  iexact Hg
theorem PhiA1_join (c : Dev nD) :
    (iprop(iprop((∃ d, owns (c : Thread nD τ) scM1_0 fullShare d) ∗ rest1 c) ∗ (∃ r, prngReg c r)) : sProp 𝕄)
      ⊢ Pipeline.ΦA spec1 c := by
  unfold Pipeline.ΦA rest1; rw [scopedRest1_eq]; simp only [scM1_0, owns_whole]
  iintro ⟨⟨HS, H1, H2, H3, H4, H5, H6⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    iexact HS
  iexact Hg

end Cert.KernelIdeal.Frame

end
-- ==== Proof.Ideal.HiStepFirst.lean ====
import proofs.«179442_j32916629357225_2_alg».proof.Proof.Ideal.HiCases

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST REDUCTION STEP (`k = 0`). On whole buffers — the image and the tile at their contents, the output's buffer at
    contents handed back untouched, the running total's at anything — the body runs: it stores zero into the running total,
    reads it back, adds the tile's product and stores the sum. The pieces the running total ends with are found by the run. -/
noncomputable def kernelRun1_A (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond1_0 i) (hc1 : ¬cond1_1 i)
    (x0 : Vec F S2x65536 .f32) (x1 : Vec F S512x8192 .f32) :
    Σ' (L2 : List (View.Piece (Elt F) S2x512 .f32)), { LS0 : List (View.Piece (Elt F) S2x512 .f32) //
      ∀ (xi2 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frame

end
-- ==== Proof.Ideal.HiStepMiddle.lean ====
import proofs.«179442_j32916629357225_2_alg».proof.Proof.Ideal.HiStepFirst

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE REDUCTION STEP (`0 < k < 7`). The running total's buffer at what the step before left (`xs0`): the body adds
    the tile's product to it and stores the sum; the output's buffer is handed back untouched. -/
noncomputable def kernelRun1_B (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : ¬cond1_1 i)
    (x0 : Vec F S2x65536 .f32) (x1 : Vec F S512x8192 .f32) (xs0 : Vec F S2x512 .f32) :
    Σ' (L2 : List (View.Piece (Elt F) S2x512 .f32)), { LS0 : List (View.Piece (Elt F) S2x512 .f32) //
      ∀ (xi2 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frame

end
-- ==== Proof.Ideal.HiStepLast.lean ====
import proofs.«179442_j32916629357225_2_alg».proof.Proof.Ideal.HiStepMiddle

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST REDUCTION STEP (`k = 7`). As a middle step, and then the finished total is read back and stored into the
    output's buffer (at anything before): the pieces both buffers end with are found by the run. -/
noncomputable def kernelRun1_C (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : cond1_1 i)
    (x0 : Vec F S2x65536 .f32) (x1 : Vec F S512x8192 .f32) (xs0 : Vec F S2x512 .f32) :
    Σ' (L2 : List (View.Piece (Elt F) S2x512 .f32)), { LS0 : List (View.Piece (Elt F) S2x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.Ideal.HiAccum.lean ====
import proofs.«179442_j32916629357225_2_alg».proof.Proof.Ideal.HiStepLast

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The fine downsample: what its output block and its running total hold after every grid point, the invariant
    that carries the running total from one point to the next, and the body's obligation at every point -/

/-- The first step stores nothing into the output's buffer: a placeholder nothing consults (the window is idle there
    and not written back). -/
def out1_A_2 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond1_0 i) (hc1 : ¬cond1_1 i)
    (x0 : Vec F S2x65536 .f32) (x1 : Vec F S512x8192 .f32) : Vec F S2x512 .f32 :=
  VO1_2.read (Elt F) (VO1_2.writes (Elt F) VO1_2.junk (kernelRun1_A c i arg2 harg2 arg3 harg3 arg4 harg4 arg5 harg5 hc0 hc1 x0 x1).1)

/-- The first step's stores cover the running total's buffer. -/
theorem scover1_A_0 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond1_0 i) (hc1 : ¬cond1_1 i)
    (x0 : Vec F S2x65536 .f32) (x1 : Vec F S512x8192 .f32) (y : S2x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2x512.size (by sl_kernel_rfl) y

/-- What the first step leaves in the running total. -/
def sout1_A_0 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond1_0 i) (hc1 : ¬cond1_1 i)
    (x0 : Vec F S2x65536 .f32) (x1 : Vec F S512x8192 .f32) : Vec F S2x512 .f32 :=
  VS1_0.read (Elt F) (VS1_0.writes (Elt F) VS1_0.junk (kernelRun1_A c i arg2 harg2 arg3 harg3 arg4 harg4 arg5 harg5 hc0 hc1 x0 x1).2.1)

/-- A middle step stores nothing into the output's buffer either. -/
def out1_B_2 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : ¬cond1_1 i)
    (x0 : Vec F S2x65536 .f32) (x1 : Vec F S512x8192 .f32) (xs0 : Vec F S2x512 .f32) : Vec F S2x512 .f32 :=
  VO1_2.read (Elt F) (VO1_2.writes (Elt F) VO1_2.junk (kernelRun1_B c i arg2 harg2 arg3 harg3 arg4 harg4 arg5 harg5 hc0 hc1 x0 x1 xs0).1)

theorem scover1_B_0 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : ¬cond1_1 i)
    (x0 : Vec F S2x65536 .f32) (x1 : Vec F S512x8192 .f32) (xs0 : Vec F S2x512 .f32) (y : S2x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2x512.size (by sl_kernel_rfl) y

/-- What a middle step leaves in the running total, from what the step before left (`xs0`). -/
def sout1_B_0 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : ¬cond1_1 i)
    (x0 : Vec F S2x65536 .f32) (x1 : Vec F S512x8192 .f32) (xs0 : Vec F S2x512 .f32) : Vec F S2x512 .f32 :=
  VS1_0.read (Elt F) (VS1_0.writes (Elt F) VS1_0.junk (kernelRun1_B c i arg2 harg2 arg3 harg3 arg4 harg4 arg5 harg5 hc0 hc1 x0 x1 xs0).2.1)

/-- The last step's store covers the output's buffer. -/
theorem cover1_C_2 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : cond1_1 i)
    (x0 : Vec F S2x65536 .f32) (x1 : Vec F S512x8192 .f32) (xs0 : Vec F S2x512 .f32) (y : S2x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2x512.size (by sl_kernel_rfl) y

/-- What the last step leaves in the output's buffer: the finished total. -/
def out1_C_2 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : cond1_1 i)
    (x0 : Vec F S2x65536 .f32) (x1 : Vec F S512x8192 .f32) (xs0 : Vec F S2x512 .f32) : Vec F S2x512 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : cond1_1 i)
    (x0 : Vec F S2x65536 .f32) (x1 : Vec F S512x8192 .f32) (xs0 : Vec F S2x512 .f32) (y : S2x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2x512.size (by sl_kernel_rfl) y

/-- What the last step leaves in the running total. -/
def sout1_C_0 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : cond1_1 i)
    (x0 : Vec F S2x65536 .f32) (x1 : Vec F S512x8192 .f32) (xs0 : Vec F S2x512 .f32) : Vec F S2x512 .f32 :=
  VS1_0.read (Elt F) (VS1_0.writes (Elt F) VS1_0.junk (kernelRun1_C c i arg2 harg2 arg3 harg3 arg4 harg4 arg5 harg5 hc0 hc1 x0 x1 xs0).2.1)

section
variable (V : (c : Dev nD) → (b : Ref sig .tc) → Buf (Elt F) ((c : Thread nD τ).loc b))

/-! ## One point's contribution: (the output's buffer, the running total) after the body there -/

/-- At a first reduction step: from the point's image and tile blocks alone. -/
def stepA1 (c : Dev nD) (t : Fin cfg1.N) (h0 : t.val % 8 = 0) (h1 : ¬t.val % 8 = 7) : Vec F S2x512 .f32 × Vec F S2x512 .f32 :=
  (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
   sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t))

/-- At a middle step: from the blocks and the running total the point before left. -/
def stepB1 (c : Dev nD) (t : Fin cfg1.N) (h0 : ¬t.val % 8 = 0) (h1 : ¬t.val % 8 = 7) (xs : Vec F S2x512 .f32) : Vec F S2x512 .f32 × Vec F S2x512 .f32 :=
  (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) xs,
   sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) xs)

/-- At a last step: likewise, and the output's buffer now holds the finished total. -/
def stepC1 (c : Dev nD) (t : Fin cfg1.N) (h0 : ¬t.val % 8 = 0) (h1 : t.val % 8 = 7) (xs : Vec F S2x512 .f32) : Vec F S2x512 .f32 × Vec F S2x512 .f32 :=
  (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs,
   sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) xs)

/-- THE ACCUMULATION, by recursion on the point: the first step of each column block starts afresh, every later step
    continues from the running total the point before left. -/
def outsAt1 (c : Dev nD) : (n : ℕ) → n < cfg1.N → Vec F S2x512 .f32 × Vec F S2x512 .f32
  | 0, hn => stepA1 V c ⟨0, hn⟩ (Nat.zero_mod _) (fun h => absurd h (by decide : ¬(0 % 8 = 7)))
  | n + 1, hn =>
    if h0 : (n + 1) % 8 = 0 then stepA1 V c ⟨n + 1, hn⟩ h0 (by dsimp only; omega)
    else if h1 : (n + 1) % 8 = 7 then stepC1 V c ⟨n + 1, hn⟩ h0 h1 (outsAt1 c n (Nat.lt_of_succ_lt hn)).2
    else stepB1 V c ⟨n + 1, hn⟩ h0 h1 (outsAt1 c n (Nat.lt_of_succ_lt hn)).2

theorem outsAt1_A (c : Dev nD) (t : Fin cfg1.N) (h0 : t.val % 8 = 0) (h1 : ¬t.val % 8 = 7) :
    outsAt1 V c t.val t.isLt = stepA1 V c t h0 h1 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = stepB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stepC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant between points: the running total at what the point before left -/

/-- Before the first point the class's invariant (every scoped buffer at anything); afterwards the running total's buffer at
    the last point's value, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The proof data -/

/-- The arrays as the call finds them; after the body each input's buffer at its block and the output's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's residue mod 8 says which step it is; the
    invariant hands the body the running total at what the point before left (at anything before the very first point)
    and takes it back at this point's value; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold stepA1 sout1_A_0; (try dsimp only)
      by_cases hz : t.val = 0
      · rw [PhiS1_castSucc V c t, PhiS1_zero V c _ _ hz]
        have hsp := PhiA1_split (F := F) c
        iintro ⟨HP, Ho, ⟨%d0, H0⟩, ⟨%d1, H1⟩, ⟨%d2, H2⟩⟩
        ihave HP' := hsp $$ HP
        icases HP' with ⟨⟨HS0, HR⟩, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold stepC1 out1_C_2 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold stepB1 sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is handed (the class's invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the running total's value is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  refine BIBase.Entails.trans ?_ (PhiA1_join c)
  iintro ⟨⟨HS0, HR⟩, Hg⟩
  isplitl [HS0 HR]
  · isplitl [HS0]
    · iexists _; iexact HS0
    iexact HR
  iexact Hg

end

end Cert.KernelIdeal.Frame

end
-- ==== Proof.Ideal.Segments.lean ====
import proofs.«179442_j32916629357225_2_alg».proof.Proof.Ideal.LoAccum
import proofs.«179442_j32916629357225_2_alg».proof.Proof.Ideal.HiAccum
import proofs.«179442_j32916629357225_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # @main as five segments — reshape, the coarse call, reshape, the fine call, reshape — and its run: every weakly fair
    execution terminates, nothing faults, and every unscoped buffer ends at the contents folded through the segments. -/

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the image is flattened (the coarse call's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the coarse call: its arrays at what the write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the coarse result is folded to its square (the fine call's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the fine call. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the fine result is folded to its square: the end. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The two calls as segments -/

set_option backward.isDefEq.respectTransparency.types false in
/-- The first call over the thread state: entered from every unscoped buffer at `W1`, left at `W2`. Its
    arrays are split out of the unscoped buffers and put back at what the write-backs leave; the generator register and the
    scoped buffers go into the call's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (U1 m) c).Φ 0 from rfl]
    refine BIBase.Entails.trans ?_ (hin0 (U1 m) c)
    unfold Pipeline.ΦA
    iintro ⟨Hp, -, Hr⟩
    isplitl [Hr]; · iexact Hr
    iexact Hp
  hout c := by
    rw [Pipeline.ownSems0_none, show (pdats m 0 c).Φ (Fin.last _) = (dat0 (U1 m) c).Φ (Fin.last cfg0.N) from rfl]
    refine BIBase.Entails.trans (hout0 (U1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W3`, left at `W4`. Its
    arrays are split out of the unscoped buffers and put back at what the write-backs leave; the generator register and the
    scoped buffers go into the call's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (U3 m) c).Φ 0 from rfl]
    refine BIBase.Entails.trans ?_ (hin1 (U3 m) c)
    unfold Pipeline.ΦA
    iintro ⟨Hp, -, Hr⟩
    isplitl [Hr]; · iexact Hr
    iexact Hp
  hout c := by
    rw [Pipeline.ownSems0_none, show (pdats m 1 c).Φ (Fin.last _) = (dat1 (U3 m) c).Φ (Fin.last cfg1.N) from rfl]
    refine BIBase.Entails.trans (hout1 (U3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and in
    every final state each unscoped buffer holds the contents folded through the five segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dat0 (U1 m) c).arrAt_in 1 rfl _).trans (A_eq0 (U1 m) c 1))
    _ = W0 m c (Proc.devRef .tc main_arg1) := StableHlo.after_of_writes_sub hostOps0 _ hostOps0_writes (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := (W4_arr m c 1).trans (((dat1 (U3 m) c).arrAt_in 1 rfl _).trans (A_eq1 (U3 m) c 1))
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.KernelIdeal.Frame

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibIdxSums.lean ====
/-
  Finite sums over the multi-indices of an array, as nested sums over the coordinates, in any additive commutative
  monoid (the extended reals among them: their addition is commutative and associative at the infinities too, so a
  sum may be regrouped freely there).

  * a rank-4 array with a unit second axis, [a, 1, c, d]: the sum over every index is the triple sum over the three
    long coordinates (`sum_idx4_unit1`); and the sum over the indices whose leading coordinate is a given `A` is the
    double sum over the last two (`sum_filter_lead4_unit1`) — what a sum "over every axis but the first" reads as;
  * a rank-3 array with two trailing unit axes, [a, 1, 1]: the sum over every index is the sum over the leading
    coordinate (`sum_idx3_unit12`);
  * a sum over `Fin (m * n)` cut into `m` consecutive runs of `n` (`sum_fin_mul`);
  * a sum over `2K` consecutive naturals taken two at a time (`sum_range_pairs`);
  * a running total that starts from `z + x 0` and adds `x (k+1)` at each later step is `z` plus the partial sum
    (`chain_eq_sum`).
-/
import Idealize.ShloMosaic.Lib.ValueIdx

namespace Idealize.ShloMosaic.LibIdxSums

open Idealize.ShloMosaic Idealize.ShloMosaic.ValueIdx

variable {M : Type*} [AddCommMonoid M]

/-- The indices of an [a, 1, c, d] array are the triples of its long coordinates. -/
def idxEquiv4Unit1 {a c d : Nat} : (⟨4, ![a, 1, c, d]⟩ : Shape).Idx ≃ Fin a × Fin c × Fin d where
  toFun j := (j 0, j 2, j 3)
  invFun p := ix4 p.1 (0 : Fin 1) p.2.1 p.2.2
  left_inv j := by
    funext x
    match x with
    | ⟨0, _⟩ => rfl
    | ⟨1, _⟩ => exact Fin.ext (by have := (j 1).isLt; show 0 = (j 1).val; simp at this; omega)
    | ⟨2, _⟩ => rfl
    | ⟨3, _⟩ => rfl
  right_inv p := rfl

/-- The sum over every index of an [a, 1, c, d] array is the triple sum over its three long coordinates. -/
theorem sum_idx4_unit1 {a c d : Nat} (f : (⟨4, ![a, 1, c, d]⟩ : Shape).Idx → M) :
    ∑ j, f j = ∑ A : Fin a, ∑ C : Fin c, ∑ D : Fin d, f (ix4 A (0 : Fin 1) C D) := by
  rw [← Equiv.sum_comp (idxEquiv4Unit1 (a := a) (c := c) (d := d)).symm f, Fintype.sum_prod_type]
  refine Finset.sum_congr rfl fun A _ => ?_
  rw [Fintype.sum_prod_type]
  rfl

/-- The sum over the indices of an [a, 1, c, d] array whose leading coordinate is `A`: the double sum over the last two
    coordinates. (`lead` is any function that reads the leading coordinate — a reduction's "drop the other axes".) -/
theorem sum_filter_lead4_unit1 {a c d : Nat} {ι : Type*} [DecidableEq ι] (lead : (⟨4, ![a, 1, c, d]⟩ : Shape).Idx → ι) (key : ι)
    (A : Fin a) (hlead : ∀ j, lead j = key ↔ j 0 = A) (f : (⟨4, ![a, 1, c, d]⟩ : Shape).Idx → M) :
    ∑ j ∈ Finset.univ.filter (fun j => lead j = key), f j = ∑ C : Fin c, ∑ D : Fin d, f (ix4 A (0 : Fin 1) C D) := by
  rw [Finset.sum_filter, sum_idx4_unit1]
  rw [Finset.sum_eq_single A]
  · refine Finset.sum_congr rfl fun C _ => Finset.sum_congr rfl fun D _ => ?_
    rw [if_pos ((hlead _).mpr rfl)]
  · intro A' _ hne
    refine Finset.sum_eq_zero fun C _ => Finset.sum_eq_zero fun D _ => ?_
    rw [if_neg (fun h => hne ((hlead _).mp h))]
  · intro h; exact absurd (Finset.mem_univ A) h

/-- The indices of an [a, 1, 1] array are its leading coordinates. -/
def idxEquiv3Unit12 {a : Nat} : (⟨3, ![a, 1, 1]⟩ : Shape).Idx ≃ Fin a where
  toFun j := j 0
  invFun p := ix3 p (0 : Fin 1) (0 : Fin 1)
  left_inv j := by
    funext x
    match x with
    | ⟨0, _⟩ => rfl
    | ⟨1, _⟩ => exact Fin.ext (by have := (j 1).isLt; show 0 = (j 1).val; simp at this; omega)
    | ⟨2, _⟩ => exact Fin.ext (by have := (j 2).isLt; show 0 = (j 2).val; simp at this; omega)
  right_inv p := rfl

/-- The sum over every index of an [a, 1, 1] array is the sum over its leading coordinate. -/
theorem sum_idx3_unit12 {a : Nat} (f : (⟨3, ![a, 1, 1]⟩ : Shape).Idx → M) :
    ∑ j, f j = ∑ A : Fin a, f (ix3 A (0 : Fin 1) (0 : Fin 1)) :=
  (Equiv.sum_comp (idxEquiv3Unit12 (a := a)).symm f).symm

/-- A sum over `Fin (m * n)` is the sum over `m` consecutive runs of `n`: position `n * i + j` is entry `j` of run `i`. -/
theorem sum_fin_mul (m n : Nat) (f : Fin (m * n) → M) :
    ∑ k, f k = ∑ i : Fin m, ∑ j : Fin n, f (finProdFinEquiv (i, j)) := by
  rw [← Equiv.sum_comp finProdFinEquiv f, Fintype.sum_prod_type]

/-- A sum over the first `2K` naturals, taken in consecutive pairs. -/
theorem sum_range_pairs (f : Nat → M) : ∀ K, ∑ k ∈ Finset.range K, (f (2 * k) + f (2 * k + 1)) = ∑ n ∈ Finset.range (2 * K), f n
  | 0 => by simp
  | K + 1 => by
    rw [Finset.sum_range_succ, sum_range_pairs f K, show 2 * (K + 1) = 2 * K + 1 + 1 by ring, Finset.sum_range_succ,
      Finset.sum_range_succ, add_assoc]

/-- A running total: from `z + x 0`, adding `x (k + 1)` at step `k + 1`, the total after step `n` is `z` plus the sum of
    `x 0 … x n`. -/
theorem chain_eq_sum (acc x : Nat → M) (z : M) (h0 : acc 0 = z + x 0) (hs : ∀ k, acc (k + 1) = acc k + x (k + 1)) :
    ∀ n, acc n = z + ∑ k ∈ Finset.range (n + 1), x k
  | 0 => by rw [h0, Finset.sum_range_one]
  | n + 1 => by rw [hs, chain_eq_sum acc x z h0 hs n, Finset.sum_range_succ _ (n + 1), add_assoc]

end Idealize.ShloMosaic.LibIdxSums
-- ==== Proof.Ideal.LoValue.lean ====
import proofs.«179442_j32916629357225_2_alg».proof.Proof.Ideal.LoAccum
import proofs.«179442_j32916629357225_2_alg».proof.Proof.LibMatmul2
import proofs.«179442_j32916629357225_2_alg».proof.Proof.LibIdxSums
import Idealize.ShloMosaic.Lib.Pipeline.Value
import Idealize.ShloMosaic.Lib.ValueIdx
import Idealize.ShloMosaic.PureOps.Ideal.Laws

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-! # The coarse downsample at the exact values: entry (p, q) of its result is the dot product, over all 65536 flattened
    pixels, of image row p with row q of the selection matrix — the eight tile dot-products added up step by step. -/

theorem hzz0 : (![0, 0] : Fin 2 → Nat) = fun _ => 0 := funext fun a => by fin_cases a <;> rfl

/-- The 8192-pixel tile of the flattened image that the body slices out at its reduction step. -/
abbrev xtile0 (i : grid0.Coords) (x0 : Vec F S2x65536 .f32) : Vec F S2x8192 .f32 :=
  View.ld x0 (Rect.unit (s := S2x65536) (k0_off1 i) S2x8192.size (k0_off1_inb i))

/-! ## What each step leaves, as the body's arithmetic of what it read -/

/-- The first step leaves the tile's product added to the zero block it has just stored. -/
theorem sout_A0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond0_0 i) (hc1 : ¬cond0_1 i)
    (x0 : Vec F S2x65536 .f32) (x1 : Vec F S512x8192 .f32) :
    sout0_A_0 c i arg2 harg2 arg3 harg3 arg4 harg4 arg5 harg5 hc0 hc1 x0 x1 = k0_pay2 (xtile0 i x0) x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S2x512) hzz0, View.readCov_unit_zero (S := S2x512) _ hzz0]
  simp only [View.readAt_eq_ld, harg2.read_unread, harg3.read_unread, View.ld_unit_zero (S := S512x8192) hzz0]
  try rfl

/-- A middle step leaves the tile's product added to the running total it found. -/
theorem sout_B0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : ¬cond0_1 i)
    (x0 : Vec F S2x65536 .f32) (x1 : Vec F S512x8192 .f32) (xs0 : Vec F S2x512 .f32) :
    sout0_B_0 c i arg2 harg2 arg3 harg3 arg4 harg4 arg5 harg5 hc0 hc1 x0 x1 xs0 = k0_pay2 (xtile0 i x0) x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero (S := S2x512) hzz0]
  simp only [View.readAt_eq_ld, harg2.read_unread, harg3.read_unread, harg5.read_unread, View.ld_unit_zero (S := S512x8192) hzz0, View.ld_unit_zero (S := S2x512) hzz0]
  try rfl

/-- So does the last step, -/
theorem sout_C0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x65536 .f32) (x1 : Vec F S512x8192 .f32) (xs0 : Vec F S2x512 .f32) :
    sout0_C_0 c i arg2 harg2 arg3 harg3 arg4 harg4 arg5 harg5 hc0 hc1 x0 x1 xs0 = k0_pay2 (xtile0 i x0) x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S2x512) hzz0]
  simp only [View.readAt_eq_ld, harg2.read_unread, harg3.read_unread, harg5.read_unread, View.ld_unit_zero (S := S512x8192) hzz0, View.ld_unit_zero (S := S2x512) hzz0]
  try rfl

/-- and it stores that finished total, read back, into the output's buffer. -/
theorem out_C0 (c : Dev nD) (i : grid0.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x65536 .f32) (x1 : Vec F S512x8192 .f32) (xs0 : Vec F S2x512 .f32) :
    out0_C_2 c i arg2 harg2 arg3 harg3 arg4 harg4 arg5 harg5 hc0 hc1 x0 x1 xs0 = k0_pay2 (xtile0 i x0) x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S2x512) hzz0, View.readCov_unit_zero (S := S2x512) _ hzz0]
  simp only [View.readAt_eq_ld, harg2.read_unread, harg3.read_unread, harg5.read_unread, View.ld_unit_zero (S := S512x8192) hzz0, View.ld_unit_zero (S := S2x512) hzz0]
  try rfl

/-! ## The body's arithmetic at an entry, on the extended reals -/

/-- The block the first step stores is zero everywhere. -/
theorem pay1_apply0 (p : Fin 2) (q : Fin 512) : k0_pay1 (F := Ideal) (ix2 p q) = 0 := by
  unfold k0_pay1
  simp only [shapeCast_self]
  show Ideal.ofBits .f32 0x00000000#32 = 0
  exact Ideal.ofBits_zero_f32

/-- A step's update at entry (p, q): the running total there plus the dot product of the image tile's row p with the
    matrix tile's row q (the matrix product contracts both operands on their last axis, into a zero accumulator). -/
theorem pay2_apply0 (v6 : Vec Ideal S2x8192 .f32) (v8 : Vec Ideal S512x8192 .f32) (v10 : Vec Ideal S2x512 .f32) (p : Fin 2) (q : Fin 512) :
    k0_pay2 (F := Ideal) v6 v8 v10 (ix2 p q) = v10 (ix2 p q) + ∑ j : Fin 8192, v6 (ix2 p j) * v8 (ix2 q j) := by
  unfold k0_pay2
  simp only [shapeCast_self]
  exact congrArg (v10 (ix2 p q) + ·) (LibMatmul2.matmul_nt_apply dot_S2x8192_S512x8192_S2x512_1_1_0_0_n_n_wf none v6 v8 p q)

/-! ## Where a point's blocks sit in the arrays -/

theorem off0_facts : ∀ t : Fin cfg0.N, k0_off1 (grid0.coords t) 0 = 0 ∧ k0_off1 (grid0.coords t) 1 = (t.val % 8) * 8192 :=
  (by decide +kernel : ∀ t : Fin grid0.N, k0_off1 (grid0.coords t) 0 = 0 ∧ k0_off1 (grid0.coords t) 1 = (t.val % 8) * 8192)
theorem idx0_0_facts : ∀ t : Fin cfg0.N, win0_0.index t 0 = 0 ∧ win0_0.index t 1 = 0 :=
  (by decide +kernel : ∀ t : Fin grid0.N, win0_0.index t 0 = 0 ∧ win0_0.index t 1 = 0)
theorem idx0_1_facts : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem idx0_2_facts : ∀ t : Fin cfg0.N, win0_2.index t 0 = 0 ∧ win0_2.index t 1 = t.val / 8 :=
  (by decide +kernel : ∀ t : Fin grid0.N, win0_2.index t 0 = 0 ∧ win0_2.index t 1 = t.val / 8)
theorem xsize0_2_facts : ∀ t : Fin cfg0.N, win0_2.xsize (grid0.coords t) 0 = 2 ∧ win0_2.xsize (grid0.coords t) 1 = 512 :=
  (by decide +kernel : ∀ t : Fin grid0.N, win0_2.xsize (grid0.coords t) 0 = 2 ∧ win0_2.xsize (grid0.coords t) 1 = 512)

theorem lt16 {n : ℕ} (h : n < cfg0.N) : n < 16 := lt_of_lt_of_eq h N_0

/-- Pixel j of tile κ. -/
def colAt0 (κ : ℕ) (hκ : κ < 8) (j : Fin 8192) : Fin 65536 := ⟨κ * 8192 + j.val, by have := j.isLt; omega⟩
/-- Row q of the column block that grid point n works on. -/
def rowAt0 (n : ℕ) (hn : n < 16) (q : Fin 512) : Fin 1024 := ⟨(n / 8) * 512 + q.val, by have := q.isLt; omega⟩

/-! ## A point's contribution, as the body's arithmetic of the point's blocks -/

section Steps
variable (V : (c : Dev nD) → (b : Ref sig .tc) → Buf (Elt F) ((c : Thread nD τ).loc b))

theorem stepA0_snd (c : Dev nD) (t : Fin cfg0.N) (h0 : t.val % 8 = 0) (h1 : ¬t.val % 8 = 7) :
    (stepA0 V c t h0 h1).2 = k0_pay2 (xtile0 (grid0.coords t) (iblk0 V c 0 t)) (iblk0 V c 1 t) k0_pay1 := by
  unfold stepA0
  dsimp only
  rw [sout_A0]
theorem stepB0_snd (c : Dev nD) (t : Fin cfg0.N) (h0 : ¬t.val % 8 = 0) (h1 : ¬t.val % 8 = 7) (xs : Vec F S2x512 .f32) :
    (stepB0 V c t h0 h1 xs).2 = k0_pay2 (xtile0 (grid0.coords t) (iblk0 V c 0 t)) (iblk0 V c 1 t) xs := by
  unfold stepB0
  dsimp only
  rw [sout_B0]
theorem stepC0_snd (c : Dev nD) (t : Fin cfg0.N) (h0 : ¬t.val % 8 = 0) (h1 : t.val % 8 = 7) (xs : Vec F S2x512 .f32) :
    (stepC0 V c t h0 h1 xs).2 = k0_pay2 (xtile0 (grid0.coords t) (iblk0 V c 0 t)) (iblk0 V c 1 t) xs := by
  unfold stepC0
  dsimp only
  rw [sout_C0]
theorem stepC0_fst (c : Dev nD) (t : Fin cfg0.N) (h0 : ¬t.val % 8 = 0) (h1 : t.val % 8 = 7) (xs : Vec F S2x512 .f32) :
    (stepC0 V c t h0 h1 xs).1 = k0_pay2 (xtile0 (grid0.coords t) (iblk0 V c 0 t)) (iblk0 V c 1 t) xs := by
  unfold stepC0
  dsimp only
  rw [out_C0]
end Steps

section AtIdeal
variable (V : (c : Dev nD) → (b : Ref sig .tc) → Buf (Elt Ideal) ((c : Thread nD τ).loc b))

/-- The flattened image and the selection matrix as the call finds them, as arrays of extended reals. -/
def img0 (c : Dev nD) : S2x65536.Idx → EReal := V c main_v0
def sel0 (c : Dev nD) : S1024x65536.Idx → EReal := V c main_arg1

/-- The image tile at point `t`, entry (p, j): the flattened image at (p, pixel j of tile t mod 8). -/
theorem xtile0_apply (c : Dev nD) (t : Fin cfg0.N) (p : Fin 2) (j : Fin 8192) :
    xtile0 (grid0.coords t) (iblk0 V c 0 t) (ix2 p j)
      = img0 V c (ix2 p (colAt0 (t.val % 8) (Nat.mod_lt _ (by norm_num)) j)) := by
  show iblk0 V c 0 t _ = _
  unfold iblk0 img0
  rw [View.read_apply]
  show V c main_v0 _ = V c main_v0 _
  congr 1
  funext a; apply Fin.ext
  match a with
  | ⟨0, _⟩ =>
    show win0_0.index t 0 * 2 + 1 * (k0_off1 (grid0.coords t) 0 + 1 * p.val) = p.val
    rw [(idx0_0_facts t).1, (off0_facts t).1]; omega
  | ⟨1, _⟩ =>
    show win0_0.index t 1 * 65536 + 1 * (k0_off1 (grid0.coords t) 1 + 1 * j.val) = (t.val % 8) * 8192 + j.val
    rw [(idx0_0_facts t).2, (off0_facts t).2]; omega

/-- The matrix tile at point `t`, entry (q, j): the selection matrix at (row q of block t / 8, pixel j of tile t mod 8). -/
theorem wtile0_apply (c : Dev nD) (t : Fin cfg0.N) (q : Fin 512) (j : Fin 8192) :
    (iblk0 V c 1 t : Vec Ideal S512x8192 .f32) (ix2 q j)
      = sel0 V c (ix2 (rowAt0 t.val (lt16 t.isLt) q) (colAt0 (t.val % 8) (Nat.mod_lt _ (by norm_num)) j)) := by
  unfold iblk0 sel0
  rw [View.read_apply]
  show V c main_arg1 _ = V c main_arg1 _
  congr 1
  funext a; apply Fin.ext
  match a with
  | ⟨0, _⟩ =>
    show win0_1.index t 0 * 512 + 1 * q.val = (t.val / 8) * 512 + q.val
    rw [(idx0_1_facts t).1]; omega
  | ⟨1, _⟩ =>
    show win0_1.index t 1 * 8192 + 1 * j.val = (t.val % 8) * 8192 + j.val
    rw [(idx0_1_facts t).2]; omega

/-- Tile κ's share of entry (p, q) of the column block point n works on (zero beyond the eight tiles). -/
def share0 (c : Dev nD) (n : ℕ) (hn : n < 16) (p : Fin 2) (q : Fin 512) (κ : ℕ) : EReal :=
  if hκ : κ < 8 then ∑ j : Fin 8192, img0 V c (ix2 p (colAt0 κ hκ j)) * sel0 V c (ix2 (rowAt0 n hn q) (colAt0 κ hκ j))
  else 0

/-- The update a point makes at entry (p, q), from a running total `xs`: it adds the share of the point's own tile. -/
theorem update0 (c : Dev nD) (t : Fin cfg0.N) (xs : Vec Ideal S2x512 .f32) (p : Fin 2) (q : Fin 512) :
    k0_pay2 (F := Ideal) (xtile0 (grid0.coords t) (iblk0 V c 0 t)) (iblk0 V c 1 t) xs (ix2 p q)
      = xs (ix2 p q) + share0 V c t.val (lt16 t.isLt) p q (t.val % 8) := by
  rw [pay2_apply0]
  unfold share0
  rw [dif_pos (Nat.mod_lt _ (by norm_num))]
  refine congrArg (xs (ix2 p q) + ·) (Finset.sum_congr rfl fun j _ => ?_)
  rw [xtile0_apply V c t p j, wtile0_apply V c t q j]

/-- THE RUNNING TOTAL after point n, at entry (p, q): the shares of the tiles done so far in the point's column block. -/
theorem acc_eq0 (c : Dev nD) : ∀ (n : ℕ) (h : n < cfg0.N) (p : Fin 2) (q : Fin 512),
    (outsAt0 V c n h).2 (ix2 p q) = ∑ κ ∈ Finset.range (n % 8 + 1), share0 V c n (lt16 h) p q κ
  | 0, h, p, q => by
    refine (congrArg (fun z => z.2 (ix2 p q)) (outsAt0_A V c ⟨0, h⟩ (Nat.zero_mod _) (fun e => absurd e (by decide : ¬(0 % 8 = 7))))).trans ?_
    show (stepA0 V c ⟨0, h⟩ _ _).2 (ix2 p q) = _
    rw [stepA0_snd, update0 V c ⟨0, h⟩, pay1_apply0, zero_add]
    show share0 V c 0 _ p q 0 = ∑ κ ∈ Finset.range 1, share0 V c 0 _ p q κ
    exact (Finset.sum_range_one _).symm
  | n + 1, h, p, q => by
    have hN := lt16 h
    by_cases h0 : (n + 1) % 8 = 0
    · refine (congrArg (fun z => z.2 (ix2 p q)) (outsAt0_A V c ⟨n + 1, h⟩ h0 (by dsimp only; omega))).trans ?_
      show (stepA0 V c ⟨n + 1, h⟩ _ _).2 (ix2 p q) = _
      rw [stepA0_snd, update0 V c ⟨n + 1, h⟩, pay1_apply0, zero_add]
      show share0 V c (n + 1) _ p q ((n + 1) % 8) = ∑ κ ∈ Finset.range ((n + 1) % 8 + 1), share0 V c (n + 1) _ p q κ
      rw [h0]
      exact (Finset.sum_range_one _).symm
    · have ih := acc_eq0 c n (Nat.lt_of_succ_lt h) p q
      have hk : n % 8 + 1 = (n + 1) % 8 := by omega
      have hrow : ∀ κ, share0 V c n (lt16 (Nat.lt_of_succ_lt h)) p q κ = share0 V c (n + 1) hN p q κ := fun κ => by
        unfold share0 rowAt0
        have : n / 8 = (n + 1) / 8 := by omega
        simp only [this]
      have key : k0_pay2 (F := Ideal) (xtile0 (grid0.coords ⟨n + 1, h⟩) (iblk0 V c 0 ⟨n + 1, h⟩)) (iblk0 V c 1 ⟨n + 1, h⟩) (outsAt0 V c n (Nat.lt_of_succ_lt h)).2 (ix2 p q)
            = ∑ κ ∈ Finset.range ((n + 1) % 8 + 1), share0 V c (n + 1) hN p q κ := by
        rw [update0 V c ⟨n + 1, h⟩, ih]
        show _ + share0 V c (n + 1) hN p q ((n + 1) % 8) = _
        rw [Finset.sum_range_succ _ ((n + 1) % 8), ← hk]
        exact congrArg (· + _) (Finset.sum_congr rfl fun κ _ => hrow κ)
      by_cases h1 : (n + 1) % 8 = 7
      · refine (congrArg (fun z => z.2 (ix2 p q)) (outsAt0_C V c ⟨n + 1, h⟩ h0 h1)).trans ?_
        show (stepC0 V c ⟨n + 1, h⟩ _ _ (outsAt0 V c n _).2).2 (ix2 p q) = _
        rw [stepC0_snd]
        exact key
      · refine (congrArg (fun z => z.2 (ix2 p q)) (outsAt0_B V c ⟨n + 1, h⟩ h0 h1)).trans ?_
        show (stepB0 V c ⟨n + 1, h⟩ _ _ (outsAt0 V c n _).2).2 (ix2 p q) = _
        rw [stepB0_snd]
        exact key

/-- Row p of the flattened image against row q of the selection matrix: one entry of the result. -/
def rowDot0 (c : Dev nD) (p : Fin 2) (q : Fin 1024) : EReal :=
  ∑ k : Fin 65536, img0 V c (ix2 p k) * sel0 V c (ix2 q k)

/-- The eight tiles' shares make the whole dot product: a sum over 65536 pixels taken in eight runs of 8192. -/
theorem shares_eq0 (c : Dev nD) (n : ℕ) (hn : n < 16) (p : Fin 2) (q : Fin 512) :
    ∑ κ ∈ Finset.range 8, share0 V c n hn p q κ = rowDot0 V c p (rowAt0 n hn q) := by
  unfold rowDot0
  rw [Finset.sum_range, Idealize.ShloMosaic.LibIdxSums.sum_fin_mul 8 8192]
  refine Finset.sum_congr rfl fun κ _ => ?_
  unfold share0
  rw [dif_pos κ.isLt]
  refine Finset.sum_congr rfl fun j _ => ?_
  have e : (finProdFinEquiv (κ, j) : Fin (8 * 8192)) = colAt0 κ.val κ.isLt j := Fin.ext (by
    show j.val + 8192 * κ.val = κ.val * 8192 + j.val; omega)
  rw [e]

/-- What the last step of a column block stores into the output's buffer, at entry (p, q): the whole dot product. -/
theorem out_eq0 (c : Dev nD) (t : Fin cfg0.N) (h1 : t.val % 8 = 7) (p : Fin 2) (q : Fin 512) :
    (outsAt0 V c t.val t.isLt).1 (ix2 p q) = rowDot0 V c p (rowAt0 t.val (lt16 t.isLt) q) := by
  have h0 : ¬t.val % 8 = 0 := by omega
  have hacc := acc_eq0 V c t.val t.isLt p q
  rw [outsAt0_C V c t h0 h1] at hacc ⊢
  rw [stepC0_snd] at hacc
  rw [stepC0_fst, hacc, h1]
  exact shares_eq0 V c t.val (lt16 t.isLt) p q

/-- The same at any entry of the output's block. -/
theorem out_eq0' (c : Dev nD) (t : Fin cfg0.N) (h1 : t.val % 8 = 7) (y : S2x512.Idx) :
    (outsAt0 V c t.val t.isLt).1 y = rowDot0 V c (y 0) (rowAt0 t.val (lt16 t.isLt) (y 1)) := by
  obtain ⟨p, q, rfl⟩ : ∃ (p : Fin 2) (q : Fin 512), y = ix2 p q := ⟨y 0, y 1, eq_ix2 y⟩
  exact out_eq0 V c t h1 p q

/-- THE RESULT ARRAY of the coarse call: entry (p, q) is row p of the image against row q of the matrix. -/
def G0 (c : Dev nD) : Buf (Elt Ideal) ((c : Thread nD τ).loc main_v1) :=
  fun (i : S2x1024.Idx) => rowDot0 V c (i 0) (i 1)

end AtIdeal

end Cert.KernelIdeal.Frame

end
-- ==== Proof.Ideal.LoResult.lean ====
import proofs.«179442_j32916629357225_2_alg».proof.Proof.Ideal.LoValue

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-! # The coarse downsample's result array: every write-back writes its block of the dot-product array, and the
    write-backs cover the array -/

section AtIdeal
variable (V : (c : Dev nD) → (b : Ref sig .tc) → Buf (Elt Ideal) ((c : Thread nD τ).loc b))

-- the 65536-term sum is never opened here: two of its values are compared through their arguments only
attribute [local irreducible] rowDot0

theorem G0_apply (c : Dev nD) (i : S2x1024.Idx) : G0 V c i = rowDot0 V c (i 0) (i 1) := by unfold G0; rfl

/-- Every write-back (at the last step of a column block) writes the block of `G0` it covers. -/
theorem flushed_eq0 (c : Dev nD) (t : Fin cfg0.N) (hf : (cfg0.win 2).flush t = true) :
    (dat0 V c).flushed 2 t = ((cfg0.win 2).blk t).view.read (Elt Ideal) (G0 V c) := by
  have h1 : t.val % 8 = 7 := (flush0_2 t).mp hf
  show (cfg0.win 2).cut (grid0.coords t) ((dat0 V c).after 2 t) = _
  rw [after0_2]
  funext j
  rw [View.read_apply, G0_apply]
  refine (out_eq0' V c t h1 j).trans ?_
  have hj0 : (j 0).val < 2 := (j 0).isLt
  have hj1 : (j 1).val < 512 := (j 1).isLt
  have e0 : ((((cfg0.win 2).blk t).view.emb j) 0 : Fin 2) = j 0 := Fin.ext (by
    show win0_2.index t (0 : Fin 2) * 2 + 1 * (j 0).val = (j 0).val
    rw [(idx0_2_facts t).1]; omega)
  have e1 : ((((cfg0.win 2).blk t).view.emb j) 1 : Fin 1024) = rowAt0 t.val (lt16 t.isLt) (j 1) := Fin.ext (by
    show win0_2.index t (1 : Fin 2) * 512 + 1 * (j 1).val = (t.val / 8) * 512 + (j 1).val
    rw [(idx0_2_facts t).2]; omega)
  exact (congrArg₂ (rowDot0 V c) e0 e1).symm

/-- An index of the array is in point `t`'s block iff each coordinate is in the block's range on its axis. -/
theorem mem_blk0 (t : Fin cfg0.N) (i : S2x1024.Idx) :
    i ∈ ((cfg0.win 2).blk t).view.set ↔ ∀ a : Fin 2, win0_2.index t a * S2x512.size a ≤ (i a).val ∧ (i a).val < win0_2.index t a * S2x512.size a + S2x512.size a := by
  show i ∈ ((View.whole main_v1).slice (win0_2.rect t)).set ↔ _
  rw [View.set_slice_whole, Rect.mem_set_unit]
  exact Iff.rfl

/-- The write-backs cover the array (column c is written at the last step of column block c / 512), so it ends at `G0`. -/
theorem final0 (c : Dev nD) : (dat0 V c).arrAt 2 cfg0.N = G0 V c :=
  (dat0 V c).arrAt_eq_of_cover 2 (G0 V c) (flushed_eq0 V c) fun (i : S2x1024.Idx) => by
    have hi0 : (i 0).val < 2 := (i 0).isLt
    have hi1 : (i 1).val < 1024 := (i 1).isLt
    have hN : cfg0.N = 16 := N_0
    refine ⟨⟨8 * ((i 1).val / 512) + 7, by rw [hN]; omega⟩, (flush0_2 _).mpr (by show (8 * ((i 1).val / 512) + 7) % 8 = 7; omega), ?_⟩
    rw [mem_blk0]
    obtain ⟨f0, f1⟩ := idx0_2_facts ⟨8 * ((i 1).val / 512) + 7, by rw [hN]; omega⟩
    intro a
    match a with
    | ⟨0, _⟩ =>
      show win0_2.index _ (0 : Fin 2) * 2 ≤ (i 0).val ∧ (i 0).val < win0_2.index _ (0 : Fin 2) * 2 + 2
      rw [f0]; omega
    | ⟨1, _⟩ =>
      show win0_2.index _ (1 : Fin 2) * 512 ≤ (i 1).val ∧ (i 1).val < win0_2.index _ (1 : Fin 2) * 512 + 512
      rw [f1]
      show (8 * ((i 1).val / 512) + 7) / 8 * 512 ≤ (i 1).val ∧ (i 1).val < (8 * ((i 1).val / 512) + 7) / 8 * 512 + 512
      omega

end AtIdeal

end Cert.KernelIdeal.Frame

end
-- ==== Proof.Ideal.HiValue.lean ====
import proofs.«179442_j32916629357225_2_alg».proof.Proof.Ideal.HiAccum
import proofs.«179442_j32916629357225_2_alg».proof.Proof.LibMatmul2
import proofs.«179442_j32916629357225_2_alg».proof.Proof.LibIdxSums
import Idealize.ShloMosaic.Lib.Pipeline.Value
import Idealize.ShloMosaic.Lib.ValueIdx
import Idealize.ShloMosaic.PureOps.Ideal.Laws

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-! # The fine downsample at the exact values: entry (p, q) of its result is the dot product, over all 65536 flattened
    pixels, of image row p with row q of the selection matrix — the eight tile dot-products added up step by step, for each of eight column blocks. -/

theorem hzz1 : (![0, 0] : Fin 2 → Nat) = fun _ => 0 := funext fun a => by fin_cases a <;> rfl

/-- The 8192-pixel tile of the flattened image that the body slices out at its reduction step. -/
abbrev xtile1 (i : grid1.Coords) (x0 : Vec F S2x65536 .f32) : Vec F S2x8192 .f32 :=
  View.ld x0 (Rect.unit (s := S2x65536) (k1_off1 i) S2x8192.size (k1_off1_inb i))

/-! ## What each step leaves, as the body's arithmetic of what it read -/

/-- The first step leaves the tile's product added to the zero block it has just stored. -/
theorem sout_A1 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : cond1_0 i) (hc1 : ¬cond1_1 i)
    (x0 : Vec F S2x65536 .f32) (x1 : Vec F S512x8192 .f32) :
    sout1_A_0 c i arg2 harg2 arg3 harg3 arg4 harg4 arg5 harg5 hc0 hc1 x0 x1 = k1_pay2 (xtile1 i x0) x1 k1_pay1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S2x512) hzz1, View.readCov_unit_zero (S := S2x512) _ hzz1]
  simp only [View.readAt_eq_ld, harg2.read_unread, harg3.read_unread, View.ld_unit_zero (S := S512x8192) hzz1]
  try rfl

/-- A middle step leaves the tile's product added to the running total it found. -/
theorem sout_B1 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : ¬cond1_1 i)
    (x0 : Vec F S2x65536 .f32) (x1 : Vec F S512x8192 .f32) (xs0 : Vec F S2x512 .f32) :
    sout1_B_0 c i arg2 harg2 arg3 harg3 arg4 harg4 arg5 harg5 hc0 hc1 x0 x1 xs0 = k1_pay2 (xtile1 i x0) x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  rw [View.canon_unit_zero (S := S2x512) hzz1]
  simp only [View.readAt_eq_ld, harg2.read_unread, harg3.read_unread, harg5.read_unread, View.ld_unit_zero (S := S512x8192) hzz1, View.ld_unit_zero (S := S2x512) hzz1]
  try rfl

/-- So does the last step, -/
theorem sout_C1 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : cond1_1 i)
    (x0 : Vec F S2x65536 .f32) (x1 : Vec F S512x8192 .f32) (xs0 : Vec F S2x512 .f32) :
    sout1_C_0 c i arg2 harg2 arg3 harg3 arg4 harg4 arg5 harg5 hc0 hc1 x0 x1 xs0 = k1_pay2 (xtile1 i x0) x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero (S := S2x512) hzz1]
  simp only [View.readAt_eq_ld, harg2.read_unread, harg3.read_unread, harg5.read_unread, View.ld_unit_zero (S := S512x8192) hzz1, View.ld_unit_zero (S := S2x512) hzz1]
  try rfl

/-- and it stores that finished total, read back, into the output's buffer. -/
theorem out_C1 (c : Dev nD) (i : grid1.Coords) (arg2 : Memref sig .tc .vmem S2x65536 .f32) (harg2 : arg2.IsWhole) (arg3 : Memref sig .tc .vmem S512x8192 .f32) (harg3 : arg3.IsWhole) (arg4 : Memref sig .tc .vmem S2x512 .f32) (harg4 : arg4.IsWhole) (arg5 : Memref sig .tc .vmem S2x512 .f32) (harg5 : arg5.IsWhole) (hc0 : ¬cond1_0 i) (hc1 : cond1_1 i)
    (x0 : Vec F S2x65536 .f32) (x1 : Vec F S512x8192 .f32) (xs0 : Vec F S2x512 .f32) :
    out1_C_2 c i arg2 harg2 arg3 harg3 arg4 harg4 arg5 harg5 hc0 hc1 x0 x1 xs0 = k1_pay2 (xtile1 i x0) x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero (S := S2x512) hzz1, View.readCov_unit_zero (S := S2x512) _ hzz1]
  simp only [View.readAt_eq_ld, harg2.read_unread, harg3.read_unread, harg5.read_unread, View.ld_unit_zero (S := S512x8192) hzz1, View.ld_unit_zero (S := S2x512) hzz1]
  try rfl

/-! ## The body's arithmetic at an entry, on the extended reals -/

/-- The block the first step stores is zero everywhere. -/
theorem pay1_apply1 (p : Fin 2) (q : Fin 512) : k1_pay1 (F := Ideal) (ix2 p q) = 0 := by
  unfold k1_pay1
  simp only [shapeCast_self]
  show Ideal.ofBits .f32 0x00000000#32 = 0
  exact Ideal.ofBits_zero_f32

/-- A step's update at entry (p, q): the running total there plus the dot product of the image tile's row p with the
    matrix tile's row q (the matrix product contracts both operands on their last axis, into a zero accumulator). -/
theorem pay2_apply1 (v6 : Vec Ideal S2x8192 .f32) (v8 : Vec Ideal S512x8192 .f32) (v10 : Vec Ideal S2x512 .f32) (p : Fin 2) (q : Fin 512) :
    k1_pay2 (F := Ideal) v6 v8 v10 (ix2 p q) = v10 (ix2 p q) + ∑ j : Fin 8192, v6 (ix2 p j) * v8 (ix2 q j) := by
  unfold k1_pay2
  simp only [shapeCast_self]
  exact congrArg (v10 (ix2 p q) + ·) (LibMatmul2.matmul_nt_apply dot_S2x8192_S512x8192_S2x512_1_1_0_0_n_n_wf none v6 v8 p q)

/-! ## Where a point's blocks sit in the arrays -/

theorem off1_facts : ∀ t : Fin cfg1.N, k1_off1 (grid1.coords t) 0 = 0 ∧ k1_off1 (grid1.coords t) 1 = (t.val % 8) * 8192 :=
  (by decide +kernel : ∀ t : Fin grid1.N, k1_off1 (grid1.coords t) 0 = 0 ∧ k1_off1 (grid1.coords t) 1 = (t.val % 8) * 8192)
theorem idx1_0_facts : ∀ t : Fin cfg1.N, win1_0.index t 0 = 0 ∧ win1_0.index t 1 = 0 :=
  (by decide +kernel : ∀ t : Fin grid1.N, win1_0.index t 0 = 0 ∧ win1_0.index t 1 = 0)
theorem idx1_1_facts : ∀ t : Fin cfg1.N, win1_1.index t 0 = t.val / 8 ∧ win1_1.index t 1 = t.val % 8 :=
  (by decide +kernel : ∀ t : Fin grid1.N, win1_1.index t 0 = t.val / 8 ∧ win1_1.index t 1 = t.val % 8)
theorem idx1_2_facts : ∀ t : Fin cfg1.N, win1_2.index t 0 = 0 ∧ win1_2.index t 1 = t.val / 8 :=
  (by decide +kernel : ∀ t : Fin grid1.N, win1_2.index t 0 = 0 ∧ win1_2.index t 1 = t.val / 8)
theorem xsize1_2_facts : ∀ t : Fin cfg1.N, win1_2.xsize (grid1.coords t) 0 = 2 ∧ win1_2.xsize (grid1.coords t) 1 = 512 :=
  (by decide +kernel : ∀ t : Fin grid1.N, win1_2.xsize (grid1.coords t) 0 = 2 ∧ win1_2.xsize (grid1.coords t) 1 = 512)

theorem lt64 {n : ℕ} (h : n < cfg1.N) : n < 64 := lt_of_lt_of_eq h N_1

/-- Pixel j of tile κ. -/
def colAt1 (κ : ℕ) (hκ : κ < 8) (j : Fin 8192) : Fin 65536 := ⟨κ * 8192 + j.val, by have := j.isLt; omega⟩
/-- Row q of the column block that grid point n works on. -/
def rowAt1 (n : ℕ) (hn : n < 64) (q : Fin 512) : Fin 4096 := ⟨(n / 8) * 512 + q.val, by have := q.isLt; omega⟩

/-! ## A point's contribution, as the body's arithmetic of the point's blocks -/

section Steps
variable (V : (c : Dev nD) → (b : Ref sig .tc) → Buf (Elt F) ((c : Thread nD τ).loc b))

theorem stepA1_snd (c : Dev nD) (t : Fin cfg1.N) (h0 : t.val % 8 = 0) (h1 : ¬t.val % 8 = 7) :
    (stepA1 V c t h0 h1).2 = k1_pay2 (xtile1 (grid1.coords t) (iblk1 V c 0 t)) (iblk1 V c 1 t) k1_pay1 := by
  unfold stepA1
  dsimp only
  rw [sout_A1]
theorem stepB1_snd (c : Dev nD) (t : Fin cfg1.N) (h0 : ¬t.val % 8 = 0) (h1 : ¬t.val % 8 = 7) (xs : Vec F S2x512 .f32) :
    (stepB1 V c t h0 h1 xs).2 = k1_pay2 (xtile1 (grid1.coords t) (iblk1 V c 0 t)) (iblk1 V c 1 t) xs := by
  unfold stepB1
  dsimp only
  rw [sout_B1]
theorem stepC1_snd (c : Dev nD) (t : Fin cfg1.N) (h0 : ¬t.val % 8 = 0) (h1 : t.val % 8 = 7) (xs : Vec F S2x512 .f32) :
    (stepC1 V c t h0 h1 xs).2 = k1_pay2 (xtile1 (grid1.coords t) (iblk1 V c 0 t)) (iblk1 V c 1 t) xs := by
  unfold stepC1
  dsimp only
  rw [sout_C1]
theorem stepC1_fst (c : Dev nD) (t : Fin cfg1.N) (h0 : ¬t.val % 8 = 0) (h1 : t.val % 8 = 7) (xs : Vec F S2x512 .f32) :
    (stepC1 V c t h0 h1 xs).1 = k1_pay2 (xtile1 (grid1.coords t) (iblk1 V c 0 t)) (iblk1 V c 1 t) xs := by
  unfold stepC1
  dsimp only
  rw [out_C1]
end Steps

section AtIdeal
variable (V : (c : Dev nD) → (b : Ref sig .tc) → Buf (Elt Ideal) ((c : Thread nD τ).loc b))

/-- The flattened image and the selection matrix as the call finds them, as arrays of extended reals. -/
def img1 (c : Dev nD) : S2x65536.Idx → EReal := V c main_v0
def sel1 (c : Dev nD) : S4096x65536.Idx → EReal := V c main_arg2

/-- The image tile at point `t`, entry (p, j): the flattened image at (p, pixel j of tile t mod 8). -/
theorem xtile1_apply (c : Dev nD) (t : Fin cfg1.N) (p : Fin 2) (j : Fin 8192) :
    xtile1 (grid1.coords t) (iblk1 V c 0 t) (ix2 p j)
      = img1 V c (ix2 p (colAt1 (t.val % 8) (Nat.mod_lt _ (by norm_num)) j)) := by
  show iblk1 V c 0 t _ = _
  unfold iblk1 img1
  rw [View.read_apply]
  show V c main_v0 _ = V c main_v0 _
  congr 1
  funext a; apply Fin.ext
  match a with
  | ⟨0, _⟩ =>
    show win1_0.index t 0 * 2 + 1 * (k1_off1 (grid1.coords t) 0 + 1 * p.val) = p.val
    rw [(idx1_0_facts t).1, (off1_facts t).1]; omega
  | ⟨1, _⟩ =>
    show win1_0.index t 1 * 65536 + 1 * (k1_off1 (grid1.coords t) 1 + 1 * j.val) = (t.val % 8) * 8192 + j.val
    rw [(idx1_0_facts t).2, (off1_facts t).2]; omega

/-- The matrix tile at point `t`, entry (q, j): the selection matrix at (row q of block t / 8, pixel j of tile t mod 8). -/
theorem wtile1_apply (c : Dev nD) (t : Fin cfg1.N) (q : Fin 512) (j : Fin 8192) :
    (iblk1 V c 1 t : Vec Ideal S512x8192 .f32) (ix2 q j)
      = sel1 V c (ix2 (rowAt1 t.val (lt64 t.isLt) q) (colAt1 (t.val % 8) (Nat.mod_lt _ (by norm_num)) j)) := by
  unfold iblk1 sel1
  rw [View.read_apply]
  show V c main_arg2 _ = V c main_arg2 _
  congr 1
  funext a; apply Fin.ext
  match a with
  | ⟨0, _⟩ =>
    show win1_1.index t 0 * 512 + 1 * q.val = (t.val / 8) * 512 + q.val
    rw [(idx1_1_facts t).1]; omega
  | ⟨1, _⟩ =>
    show win1_1.index t 1 * 8192 + 1 * j.val = (t.val % 8) * 8192 + j.val
    rw [(idx1_1_facts t).2]; omega

/-- Tile κ's share of entry (p, q) of the column block point n works on (zero beyond the eight tiles). -/
def share1 (c : Dev nD) (n : ℕ) (hn : n < 64) (p : Fin 2) (q : Fin 512) (κ : ℕ) : EReal :=
  if hκ : κ < 8 then ∑ j : Fin 8192, img1 V c (ix2 p (colAt1 κ hκ j)) * sel1 V c (ix2 (rowAt1 n hn q) (colAt1 κ hκ j))
  else 0

/-- The update a point makes at entry (p, q), from a running total `xs`: it adds the share of the point's own tile. -/
theorem update1 (c : Dev nD) (t : Fin cfg1.N) (xs : Vec Ideal S2x512 .f32) (p : Fin 2) (q : Fin 512) :
    k1_pay2 (F := Ideal) (xtile1 (grid1.coords t) (iblk1 V c 0 t)) (iblk1 V c 1 t) xs (ix2 p q)
      = xs (ix2 p q) + share1 V c t.val (lt64 t.isLt) p q (t.val % 8) := by
  rw [pay2_apply1]
  unfold share1
  rw [dif_pos (Nat.mod_lt _ (by norm_num))]
  refine congrArg (xs (ix2 p q) + ·) (Finset.sum_congr rfl fun j _ => ?_)
  rw [xtile1_apply V c t p j, wtile1_apply V c t q j]

/-- THE RUNNING TOTAL after point n, at entry (p, q): the shares of the tiles done so far in the point's column block. -/
theorem acc_eq1 (c : Dev nD) : ∀ (n : ℕ) (h : n < cfg1.N) (p : Fin 2) (q : Fin 512),
    (outsAt1 V c n h).2 (ix2 p q) = ∑ κ ∈ Finset.range (n % 8 + 1), share1 V c n (lt64 h) p q κ
  | 0, h, p, q => by
    refine (congrArg (fun z => z.2 (ix2 p q)) (outsAt1_A V c ⟨0, h⟩ (Nat.zero_mod _) (fun e => absurd e (by decide : ¬(0 % 8 = 7))))).trans ?_
    show (stepA1 V c ⟨0, h⟩ _ _).2 (ix2 p q) = _
    rw [stepA1_snd, update1 V c ⟨0, h⟩, pay1_apply1, zero_add]
    show share1 V c 0 _ p q 0 = ∑ κ ∈ Finset.range 1, share1 V c 0 _ p q κ
    exact (Finset.sum_range_one _).symm
  | n + 1, h, p, q => by
    have hN := lt64 h
    by_cases h0 : (n + 1) % 8 = 0
    · refine (congrArg (fun z => z.2 (ix2 p q)) (outsAt1_A V c ⟨n + 1, h⟩ h0 (by dsimp only; omega))).trans ?_
      show (stepA1 V c ⟨n + 1, h⟩ _ _).2 (ix2 p q) = _
      rw [stepA1_snd, update1 V c ⟨n + 1, h⟩, pay1_apply1, zero_add]
      show share1 V c (n + 1) _ p q ((n + 1) % 8) = ∑ κ ∈ Finset.range ((n + 1) % 8 + 1), share1 V c (n + 1) _ p q κ
      rw [h0]
      exact (Finset.sum_range_one _).symm
    · have ih := acc_eq1 c n (Nat.lt_of_succ_lt h) p q
      have hk : n % 8 + 1 = (n + 1) % 8 := by omega
      have hrow : ∀ κ, share1 V c n (lt64 (Nat.lt_of_succ_lt h)) p q κ = share1 V c (n + 1) hN p q κ := fun κ => by
        unfold share1 rowAt1
        have : n / 8 = (n + 1) / 8 := by omega
        simp only [this]
      have key : k1_pay2 (F := Ideal) (xtile1 (grid1.coords ⟨n + 1, h⟩) (iblk1 V c 0 ⟨n + 1, h⟩)) (iblk1 V c 1 ⟨n + 1, h⟩) (outsAt1 V c n (Nat.lt_of_succ_lt h)).2 (ix2 p q)
            = ∑ κ ∈ Finset.range ((n + 1) % 8 + 1), share1 V c (n + 1) hN p q κ := by
        rw [update1 V c ⟨n + 1, h⟩, ih]
        show _ + share1 V c (n + 1) hN p q ((n + 1) % 8) = _
        rw [Finset.sum_range_succ _ ((n + 1) % 8), ← hk]
        exact congrArg (· + _) (Finset.sum_congr rfl fun κ _ => hrow κ)
      by_cases h1 : (n + 1) % 8 = 7
      · refine (congrArg (fun z => z.2 (ix2 p q)) (outsAt1_C V c ⟨n + 1, h⟩ h0 h1)).trans ?_
        show (stepC1 V c ⟨n + 1, h⟩ _ _ (outsAt1 V c n _).2).2 (ix2 p q) = _
        rw [stepC1_snd]
        exact key
      · refine (congrArg (fun z => z.2 (ix2 p q)) (outsAt1_B V c ⟨n + 1, h⟩ h0 h1)).trans ?_
        show (stepB1 V c ⟨n + 1, h⟩ _ _ (outsAt1 V c n _).2).2 (ix2 p q) = _
        rw [stepB1_snd]
        exact key

/-- Row p of the flattened image against row q of the selection matrix: one entry of the result. -/
def rowDot1 (c : Dev nD) (p : Fin 2) (q : Fin 4096) : EReal :=
  ∑ k : Fin 65536, img1 V c (ix2 p k) * sel1 V c (ix2 q k)

/-- The eight tiles' shares make the whole dot product: a sum over 65536 pixels taken in eight runs of 8192. -/
theorem shares_eq1 (c : Dev nD) (n : ℕ) (hn : n < 64) (p : Fin 2) (q : Fin 512) :
    ∑ κ ∈ Finset.range 8, share1 V c n hn p q κ = rowDot1 V c p (rowAt1 n hn q) := by
  unfold rowDot1
  rw [Finset.sum_range, Idealize.ShloMosaic.LibIdxSums.sum_fin_mul 8 8192]
  refine Finset.sum_congr rfl fun κ _ => ?_
  unfold share1
  rw [dif_pos κ.isLt]
  refine Finset.sum_congr rfl fun j _ => ?_
  have e : (finProdFinEquiv (κ, j) : Fin (8 * 8192)) = colAt1 κ.val κ.isLt j := Fin.ext (by
    show j.val + 8192 * κ.val = κ.val * 8192 + j.val; omega)
  rw [e]

/-- What the last step of a column block stores into the output's buffer, at entry (p, q): the whole dot product. -/
theorem out_eq1 (c : Dev nD) (t : Fin cfg1.N) (h1 : t.val % 8 = 7) (p : Fin 2) (q : Fin 512) :
    (outsAt1 V c t.val t.isLt).1 (ix2 p q) = rowDot1 V c p (rowAt1 t.val (lt64 t.isLt) q) := by
  have h0 : ¬t.val % 8 = 0 := by omega
  have hacc := acc_eq1 V c t.val t.isLt p q
  rw [outsAt1_C V c t h0 h1] at hacc ⊢
  rw [stepC1_snd] at hacc
  rw [stepC1_fst, hacc, h1]
  exact shares_eq1 V c t.val (lt64 t.isLt) p q

/-- The same at any entry of the output's block. -/
theorem out_eq1' (c : Dev nD) (t : Fin cfg1.N) (h1 : t.val % 8 = 7) (y : S2x512.Idx) :
    (outsAt1 V c t.val t.isLt).1 y = rowDot1 V c (y 0) (rowAt1 t.val (lt64 t.isLt) (y 1)) := by
  obtain ⟨p, q, rfl⟩ : ∃ (p : Fin 2) (q : Fin 512), y = ix2 p q := ⟨y 0, y 1, eq_ix2 y⟩
  exact out_eq1 V c t h1 p q

/-- THE RESULT ARRAY of the coarse call: entry (p, q) is row p of the image against row q of the matrix. -/
def G1 (c : Dev nD) : Buf (Elt Ideal) ((c : Thread nD τ).loc main_v3) :=
  fun (i : S2x4096.Idx) => rowDot1 V c (i 0) (i 1)

end AtIdeal

end Cert.KernelIdeal.Frame

end
-- ==== Proof.Ideal.HiResult.lean ====
import proofs.«179442_j32916629357225_2_alg».proof.Proof.Ideal.HiValue

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-! # The fine downsample's result array: every write-back writes its block of the dot-product array, and the
    write-backs cover the array -/

section AtIdeal
variable (V : (c : Dev nD) → (b : Ref sig .tc) → Buf (Elt Ideal) ((c : Thread nD τ).loc b))

-- the 65536-term sum is never opened here: two of its values are compared through their arguments only
attribute [local irreducible] rowDot1

theorem G1_apply (c : Dev nD) (i : S2x4096.Idx) : G1 V c i = rowDot1 V c (i 0) (i 1) := by unfold G1; rfl

/-- Every write-back (at the last step of a column block) writes the block of `G1` it covers. -/
theorem flushed_eq1 (c : Dev nD) (t : Fin cfg1.N) (hf : (cfg1.win 2).flush t = true) :
    (dat1 V c).flushed 2 t = ((cfg1.win 2).blk t).view.read (Elt Ideal) (G1 V c) := by
  have h1 : t.val % 8 = 7 := (flush1_2 t).mp hf
  show (cfg1.win 2).cut (grid1.coords t) ((dat1 V c).after 2 t) = _
  rw [after1_2]
  funext j
  rw [View.read_apply, G1_apply]
  refine (out_eq1' V c t h1 j).trans ?_
  have hj0 : (j 0).val < 2 := (j 0).isLt
  have hj1 : (j 1).val < 512 := (j 1).isLt
  have e0 : ((((cfg1.win 2).blk t).view.emb j) 0 : Fin 2) = j 0 := Fin.ext (by
    show win1_2.index t (0 : Fin 2) * 2 + 1 * (j 0).val = (j 0).val
    rw [(idx1_2_facts t).1]; omega)
  have e1 : ((((cfg1.win 2).blk t).view.emb j) 1 : Fin 4096) = rowAt1 t.val (lt64 t.isLt) (j 1) := Fin.ext (by
    show win1_2.index t (1 : Fin 2) * 512 + 1 * (j 1).val = (t.val / 8) * 512 + (j 1).val
    rw [(idx1_2_facts t).2]; omega)
  exact (congrArg₂ (rowDot1 V c) e0 e1).symm

/-- An index of the array is in point `t`'s block iff each coordinate is in the block's range on its axis. -/
theorem mem_blk1 (t : Fin cfg1.N) (i : S2x4096.Idx) :
    i ∈ ((cfg1.win 2).blk t).view.set ↔ ∀ a : Fin 2, win1_2.index t a * S2x512.size a ≤ (i a).val ∧ (i a).val < win1_2.index t a * S2x512.size a + S2x512.size a := by
  show i ∈ ((View.whole main_v3).slice (win1_2.rect t)).set ↔ _
  rw [View.set_slice_whole, Rect.mem_set_unit]
  exact Iff.rfl

/-- The write-backs cover the array (column c is written at the last step of column block c / 512), so it ends at `G1`. -/
theorem final1 (c : Dev nD) : (dat1 V c).arrAt 2 cfg1.N = G1 V c :=
  (dat1 V c).arrAt_eq_of_cover 2 (G1 V c) (flushed_eq1 V c) fun (i : S2x4096.Idx) => by
    have hi0 : (i 0).val < 2 := (i 0).isLt
    have hi1 : (i 1).val < 4096 := (i 1).isLt
    have hN : cfg1.N = 64 := N_1
    refine ⟨⟨8 * ((i 1).val / 512) + 7, by rw [hN]; omega⟩, (flush1_2 _).mpr (by show (8 * ((i 1).val / 512) + 7) % 8 = 7; omega), ?_⟩
    rw [mem_blk1]
    obtain ⟨f0, f1⟩ := idx1_2_facts ⟨8 * ((i 1).val / 512) + 7, by rw [hN]; omega⟩
    intro a
    match a with
    | ⟨0, _⟩ =>
      show win1_2.index _ (0 : Fin 2) * 2 ≤ (i 0).val ∧ (i 0).val < win1_2.index _ (0 : Fin 2) * 2 + 2
      rw [f0]; omega
    | ⟨1, _⟩ =>
      show win1_2.index _ (1 : Fin 2) * 512 ≤ (i 1).val ∧ (i 1).val < win1_2.index _ (1 : Fin 2) * 512 + 512
      rw [f1]
      show (8 * ((i 1).val / 512) + 7) / 8 * 512 ≤ (i 1).val ∧ (i 1).val < (8 * ((i 1).val / 512) + 7) / 8 * 512 + 512
      omega

end AtIdeal

end Cert.KernelIdeal.Frame

end
-- ==== Proof.Ideal.Bridge.lean ====
import proofs.«179442_j32916629357225_2_alg».proof.Defs
import proofs.«179442_j32916629357225_2_alg».proof.Proof.Ideal.Segments
import proofs.«179442_j32916629357225_2_alg».proof.Proof.Ideal.LoResult
import proofs.«179442_j32916629357225_2_alg».proof.Proof.Ideal.HiResult
import proofs.«179442_j32916629357225_2_alg».proof.Proof.Gen.ReferenceIdeal
import proofs.«179442_j32916629357225_2_alg».proof.Proof.Gen.Pre_finite_inputs
import proofs.«179442_j32916629357225_2_alg».proof.Proof.Gen.ReferenceIdeal.Read
import Idealize.ShloMosaic.Lib.StableHlo.Run

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-! # The two programs compute one function. Entry (p, q) of each kernel result is the dot product of row p of the
    flattened image with row q of the selection matrix; the reference contracts the flattened image with the transposed
    matrix, whose (k, q) entry is the matrix's (q, k) entry: the same sum, term by term. Both then fold the row to a square. -/

variable (m : (ℓ : Loc nD τ sig) → Buf (Elt Ideal) ℓ)

/-! ## What the two calls find in their input arrays -/

/-- The coarse call's image operand is the image, flattened. -/
theorem U1_v0 (c : Dev nD) : U1 m c main_v0 = shapeCast _ (m ((c : Thread nD τ).loc main_arg0)) shapeCasts_S2x256x256_S2x65536 := by
  show StableHlo.after hostOps0 (W0 m c) (Proc.devRef .tc main_v0) = _
  after_results <;> rfl
/-- Its matrix operand is the coarse selection matrix as launched. -/
theorem U1_arg1 (c : Dev nD) : U1 m c main_arg1 = (m ((c : Thread nD τ).loc main_arg1)) :=
  StableHlo.after_of_writes_sub hostOps0 _ hostOps0_writes (by decide)
/-- The fine call finds the same flattened image (the coarse call only read it), -/
theorem U3_v0 (c : Dev nD) : U3 m c main_v0 = shapeCast _ (m ((c : Thread nD τ).loc main_arg0)) shapeCasts_S2x256x256_S2x65536 :=
  calc U3 m c main_v0
    _ = W2 m c (Proc.devRef .tc main_v0) := StableHlo.after_of_writes_sub hostOps1 _ hostOps1_writes (by decide)
    _ = U1 m c main_v0 := (W2_arr m c 0).trans (((dat0 (U1 m) c).arrAt_in 0 rfl _).trans (A_eq0 (U1 m) c 0))
    _ = _ := U1_v0 m c
/-- and the fine selection matrix as launched. -/
theorem U3_arg2 (c : Dev nD) : U3 m c main_arg2 = (m ((c : Thread nD τ).loc main_arg2)) :=
  calc U3 m c main_arg2
    _ = W2 m c (Proc.devRef .tc main_arg2) := StableHlo.after_of_writes_sub hostOps1 _ hostOps1_writes (by decide)
    _ = W1 m c (Proc.devRef .tc main_arg2) := W2_of_ne m c main_arg2 (by decide)
    _ = _ := StableHlo.after_of_writes_sub hostOps0 _ hostOps0_writes (by decide)

/-! ## What the results end holding -/

/-- The coarse result: the dot-product array, folded to its square. -/
theorem W5_v2 (c : Dev nD) : W5 m c (Proc.devRef .tc main_v2) = shapeCast _ (G0 (U1 m) c) shapeCasts_S2x1024_S2x32x32 :=
  calc W5 m c (Proc.devRef .tc main_v2)
    _ = W4 m c (Proc.devRef .tc main_v2) := StableHlo.after_of_writes_sub hostOps2 _ hostOps2_writes (by decide)
    _ = W3 m c (Proc.devRef .tc main_v2) := W4_of_ne m c main_v2 (by decide)
    _ = shapeCast _ (W2 m c (Proc.devRef .tc main_v1)) shapeCasts_S2x1024_S2x32x32 := by
        show StableHlo.after hostOps1 (W2 m c) (Proc.devRef .tc main_v2) = _
        after_results <;> rfl
    _ = _ := by rw [show W2 m c (Proc.devRef .tc main_v1) = G0 (U1 m) c from (W2_arr m c 2).trans (final0 (U1 m) c)]

/-- The fine result likewise. -/
theorem W5_v4 (c : Dev nD) : W5 m c (Proc.devRef .tc main_v4) = shapeCast _ (G1 (U3 m) c) shapeCasts_S2x4096_S2x64x64 :=
  calc W5 m c (Proc.devRef .tc main_v4)
    _ = shapeCast _ (W4 m c (Proc.devRef .tc main_v3)) shapeCasts_S2x4096_S2x64x64 := by
        show StableHlo.after hostOps2 (W4 m c) (Proc.devRef .tc main_v4) = _
        after_results <;> rfl
    _ = _ := by rw [show W4 m c (Proc.devRef .tc main_v3) = G1 (U3 m) c from (W4_arr m c 2).trans (final1 (U3 m) c)]

/-! ## The kernel's dot products are the reference's contraction with the transposed matrix -/

theorem G0_eq_ref (c : Dev nD) : G0 (U1 m) c = Cert.ReferenceIdeal.Read.val_main_v2 (F := Ideal) (m ((c : Thread nD τ).loc main_arg0)) (m ((c : Thread nD τ).loc main_arg1)) := by
  funext i
  rw [Cert.ReferenceIdeal.Read.val_main_v2_apply]
  show (∑ k : Fin 65536, img0 (U1 m) c (ix2 (i 0) k) * sel0 (U1 m) c (ix2 (i 1) k)) = _
  have hi : img0 (U1 m) c = Cert.ReferenceIdeal.Read.val_main_v0 (F := Ideal) (m ((c : Thread nD τ).loc main_arg0)) := U1_v0 m c
  have hs : sel0 (U1 m) c = (m ((c : Thread nD τ).loc main_arg1)) := U1_arg1 m c
  refine Finset.sum_congr rfl fun k _ => ?_
  rw [hi, hs, Cert.ReferenceIdeal.Read.val_main_v1_apply]
  have el : Cert.ReferenceIdeal.Read.lidx_main_v2 i k = ix2 (i 0) k := funext fun a => Fin.ext (by
    match a with
    | ⟨0, _⟩ => rfl
    | ⟨1, _⟩ => rfl)
  have er : Cert.ReferenceIdeal.Read.idx_main_v1 (Cert.ReferenceIdeal.Read.ridx_main_v2 i k) = ix2 (i 1) k := funext fun a => Fin.ext (by
    match a with
    | ⟨0, _⟩ => rfl
    | ⟨1, _⟩ => rfl)
  rw [el, er]
  rfl

theorem G1_eq_ref (c : Dev nD) : G1 (U3 m) c = Cert.ReferenceIdeal.Read.val_main_v5 (F := Ideal) (m ((c : Thread nD τ).loc main_arg0)) (m ((c : Thread nD τ).loc main_arg2)) := by
  funext i
  rw [Cert.ReferenceIdeal.Read.val_main_v5_apply]
  show (∑ k : Fin 65536, img1 (U3 m) c (ix2 (i 0) k) * sel1 (U3 m) c (ix2 (i 1) k)) = _
  have hi : img1 (U3 m) c = Cert.ReferenceIdeal.Read.val_main_v0 (F := Ideal) (m ((c : Thread nD τ).loc main_arg0)) := U3_v0 m c
  have hs : sel1 (U3 m) c = (m ((c : Thread nD τ).loc main_arg2)) := U3_arg2 m c
  refine Finset.sum_congr rfl fun k _ => ?_
  rw [hi, hs, Cert.ReferenceIdeal.Read.val_main_v4_apply]
  have el : Cert.ReferenceIdeal.Read.lidx_main_v5 i k = ix2 (i 0) k := funext fun a => Fin.ext (by
    match a with
    | ⟨0, _⟩ => rfl
    | ⟨1, _⟩ => rfl)
  have er : Cert.ReferenceIdeal.Read.idx_main_v4 (Cert.ReferenceIdeal.Read.ridx_main_v5 i k) = ix2 (i 1) k := funext fun a => Fin.ext (by
    match a with
    | ⟨0, _⟩ => rfl
    | ⟨1, _⟩ => rfl)
  rw [el, er]
  rfl

/-! ## The claim between the two idealized programs -/

/-- From memories agreeing on the arguments both programs run; the kernel's results are the folded dot-product arrays, the
    reference's the folded contractions: equal, entry by entry, by `G0_eq_ref` and `G1_eq_ref`. -/
theorem algebraic : Cert.algebraic_KernelIdeal_ReferenceIdeal := by
  intro m ρ m' ρ' _ hagree
  refine ⟨fun c => W5 m c (Proc.devRef .tc main_v2), fun c => W5 m c (Proc.devRef .tc main_v4), ?_, ?_⟩
  · exact (θ_run defs _ _).mono (fun r h c =>
      ⟨h c _ (mem_uc main_v2 (by decide)), h c _ (mem_uc main_v4 (by decide)),
       (h c _ (mem_uc main_arg0 (by decide))).trans (W5_main_arg0 m c),
       (h c _ (mem_uc main_arg1 (by decide))).trans (W5_main_arg1 m c),
       (h c _ (mem_uc main_arg2 (by decide))).trans (W5_main_arg2 m c)⟩) (run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · show _ = W5 m c (Proc.devRef .tc main_v2)
      rw [(hagree c).1, (hagree c).2.1, W5_v2 m c, G0_eq_ref m c]
      rfl
    · show _ = W5 m c (Proc.devRef .tc main_v4)
      rw [(hagree c).1, (hagree c).2.2, W5_v4 m c, G1_eq_ref m c]
      rfl

end Cert.KernelIdeal.Frame

end
-- ==== Proof.lean ====
/-
  Two nearest-pixel downsamplings of a two-channel 256 x 256 image, at 32 x 32 and at 64 x 64, each written as a product
  with a selection matrix: with the image flattened to two rows of 65536 pixels, entry (p, q) of a result is the dot product
  of image row p with row q of the matrix (1024 or 4096 rows of 65536 entries), and the row of results is then folded to its
  square.

  The kernel computes each product on a grid of (column block, reduction step) points: for every block of 512 output
  columns it walks the 65536 pixels in eight tiles of 8192, keeps a running total of the tiles' partial products in a buffer
  of its own — zeroed at the first step, added to at every step — and stores the finished total into the output block at the
  last step. The reference transposes the matrix and contracts the flattened image with it in one sum.

  At the exact values both are the same sum: a sum over 65536 pixels taken in eight runs of 8192 (finite sums on the
  extended reals may be regrouped freely; no product is distributed over a sum and nothing is cancelled, so the finiteness
  of the inputs is never used), and the transposed matrix at (k, q) is the matrix at (q, k).

  * `Proof/Bits`, `Proof/Ideal`: per call — the two branch conditions as residues of the grid point mod 8, the body's run
    in each of the three kinds of step, what the output block and the running total hold after every point (by recursion on
    the point), the invariant that hands the running total from one point to the next, and the body's obligation at every
    point; then @main as five segments (reshape, call, reshape, call, reshape) and its run, whose post reads every buffer.
    The same text serves the program read at machine words and the program read at exact values.
  * `Proof/Ideal/LoValue`, `HiValue`, `LoResult`, `HiResult`: the running total as a partial sum of tile dot products
    (induction on the point), the eight tiles as the whole dot product, the written-back blocks covering the result array.
  * `Proof/Ideal/Bridge`: the dot-product array is the reference's contraction with the transposed matrix; the claim
    between the two idealized programs.
-/
import proofs.«179442_j32916629357225_2_alg».proof.Defs
import proofs.«179442_j32916629357225_2_alg».proof.Proof.Gen.Kernel
import proofs.«179442_j32916629357225_2_alg».proof.Proof.Gen.KernelIdeal
import proofs.«179442_j32916629357225_2_alg».proof.Proof.Gen.ReferenceIdeal
import proofs.«179442_j32916629357225_2_alg».proof.Proof.Gen.ReferenceIdeal.Run
import proofs.«179442_j32916629357225_2_alg».proof.Proof.Gen.Pre_finite_inputs
import proofs.«179442_j32916629357225_2_alg».proof.Proof.Bits.Segments
import proofs.«179442_j32916629357225_2_alg».proof.Proof.Ideal.Bridge
import Idealize.ShloMosaic.Adequacy
import Idealize.ShloMosaic.Init

noncomputable section

namespace Cert.Proof

open Idealize.ShloMosaic Idealize.SL.Sem

/-- The three programs run to the end from any memory, fault nowhere and leave their argument arrays as launched; no
    operation of the kernel was rewritten to idealize it; and at the exact values the kernel's two results are the
    reference's. -/
theorem claim : Cert.Claim := ⟨Cert.Kernel.Gen.facts, Cert.KernelIdeal.Gen.facts, Cert.ReferenceIdeal.Gen.facts, Cert.Pre_finite_inputs.Gen.facts,
  fun m ρ _ => Cert.Kernel.Frame.frame m ρ,
  fun m ρ _ => Cert.KernelIdeal.Frame.frame m ρ,
  fun m ρ _ => (θ_run Cert.ReferenceIdeal.defs _ _).mono (fun _ h c => (h c).2.2) (Cert.ReferenceIdeal.Value.run (F := Ideal) m ρ),
  trivial,
  Cert.KernelIdeal.Frame.algebraic⟩

end Cert.Proof

end
